-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S7x128x128 : Shape := ⟨3, ![7, 128, 128]⟩
abbrev S7x128 : Shape := ⟨2, ![7, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S7x128x128 .f32) (main_arg2 : FVec F S7x128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S7x128x128 .f32 := Host.absf main_arg1
  let main_cst_0 : FVec F S_ .f32 := constant S_ .f32 0x7F800000#32
  let main_v5 : FVec F S7x128x128 .f32 := broadcastInDim S7x128x128 ![] bcast_S_S7x128x128 main_cst_0
  let main_v6 : IVec S7x128x128 1 := cmpf .olt main_v4 main_v5
  let main_c_1 : IVec S_ 1 := constantI S_ 1 1#1
  let main_v7 : IVec S_ 1 := (fun x v => Host.reduce IntOp.andi x v reducesTo_S7x128x128_S_d0_1_2 h_S_) main_v6 main_c_1
  let main_v8 : IVec S_ 1 := andi main_v3 main_v7
  let main_v9 : FVec F S7x128 .f32 := Host.absf main_arg2
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S7x128x128 : Shape := ⟨3, ![7, 128, 128]⟩
abbrev S7x128 : Shape := ⟨2, ![7, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 181
  | .vmem => 78
  | .smem => 0
  | _ => 0

abbrev hbmTy0_0 (i : Nat) : BufTy := match i % 128 with
  | 0 => ⟨S100000x128, .f32⟩
  | 1 => ⟨S7x128x128, .f32⟩
  | 2 => ⟨S7x128, .f32⟩
  | 3 => ⟨S128x64, .f32⟩
  | 4 => ⟨S64, .f32⟩
  | 5 => ⟨S1600000, .i32⟩
  | 6 => ⟨S1600000, .i32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x1, .f32⟩
  | 31 => ⟨S100000x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S1x128, .f32⟩
  | 47 => ⟨S128, .f32⟩
  | 48 => ⟨S1x128, .f32⟩
  | 49 => ⟨S1x128x128, .f32⟩
  | 50 => ⟨S128x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S1x128, .f32⟩
  | 66 => ⟨S128, .f32⟩
  | 67 => ⟨S1x128, .f32⟩
  | 68 => ⟨S1x128x128, .f32⟩
  | 69 => ⟨S128x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S1x128, .f32⟩
  | 85 => ⟨S128, .f32⟩
  | 86 => ⟨S1x128, .f32⟩
  | 87 => ⟨S1x128x128, .f32⟩
  | 88 => ⟨S128x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S1x128, .f32⟩
  | 104 => ⟨S128, .f32⟩
  | 105 => ⟨S1x128, .f32⟩
  | 106 => ⟨S1x128x128, .f32⟩
  | 107 => ⟨S128x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S1x128, .f32⟩
  | 123 => ⟨S128, .f32⟩
  | 124 => ⟨S1x128, .f32⟩
  | 125 => ⟨S1x128x128, .f32⟩
  | 126 => ⟨S128x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S1x128, .f32⟩
  | 14 => ⟨S128, .f32⟩
  | 15 => ⟨S1x128, .f32⟩
  | 16 => ⟨S1x128x128, .f32⟩
  | 17 => ⟨S128x128, .f32⟩
  | 18 => ⟨S100000x128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S1x128, .f32⟩
  | 33 => ⟨S128, .f32⟩
  | 34 => ⟨S1x128, .f32⟩
  | 35 => ⟨S1x128x128, .f32⟩
  | 36 => ⟨S128x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S1x64, .f32⟩
  | 52 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S5000x1, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S5000x1, .f32⟩
  | .local _ .vmem, ⟨45, _⟩ => ⟨S5000x1, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S5000x1, .f32⟩
  | .local _ .vmem, ⟨55, _⟩ => ⟨S5000x1, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x1, .f32⟩
  | .local _ .vmem, ⟨63, _⟩ => ⟨S5000x1, .f32⟩
  | .local _ .vmem, ⟨64, _⟩ => ⟨S5000x1, .f32⟩
  | .local _ .vmem, ⟨65, _⟩ => ⟨S5000x1, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x1, .f32⟩
  | .local _ .vmem, ⟨73, _⟩ => ⟨S5000x1, .f32⟩
  | .local _ .vmem, ⟨74, _⟩ => ⟨S128x64, .f32⟩
  | .local _ .vmem, ⟨75, _⟩ => ⟨S1x64, .f32⟩
  | .local _ .vmem, ⟨76, _⟩ => ⟨S5000x64, .f32⟩
  | .local _ .vmem, ⟨77, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_14 : Ref sig .tc := ⟨.hbm, 90, rfl⟩
abbrev main_v67 : Ref sig .tc := ⟨.hbm, 91, rfl⟩
abbrev main_v68 : Ref sig .tc := ⟨.hbm, 92, rfl⟩
abbrev main_c_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_17 : Ref sig .tc := ⟨.hbm, 109, rfl⟩
abbrev main_v83 : Ref sig .tc := ⟨.hbm, 110, rfl⟩
abbrev main_v84 : Ref sig .tc := ⟨.hbm, 111, rfl⟩
abbrev main_c_18 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_20 : Ref sig .tc := ⟨.hbm, 128, rfl⟩
abbrev main_v99 : Ref sig .tc := ⟨.hbm, 129, rfl⟩
abbrev main_v100 : Ref sig .tc := ⟨.hbm, 130, rfl⟩
abbrev main_c_21 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_22 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c_23 : Ref sig .tc := ⟨.hbm, 147, rfl⟩
abbrev main_v115 : Ref sig .tc := ⟨.hbm, 148, rfl⟩
abbrev main_v116 : Ref sig .tc := ⟨.hbm, 149, rfl⟩
abbrev main_c_24 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_25 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_c_26 : Ref sig .tc := ⟨.hbm, 166, rfl⟩
abbrev main_v131 : Ref sig .tc := ⟨.hbm, 167, rfl⟩
abbrev main_v132 : Ref sig .tc := ⟨.hbm, 168, rfl⟩
abbrev main_c_27 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_28 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg5_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg4_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem5_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem4_1 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S7x128_S1x128_0_0 : S7x128.Slices ![0, 0] S1x128
  shapeCasts_S1x128_S128 : S1x128.ShapeCasts S128
  bcast_S128_S1x128_1 : S128.BroadcastsInDim S1x128 (![1] : Fin 1 → Fin S1x128.rank)
  slices_S7x128x128_S1x128x128_0_0_0 : S7x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S7x128_S1x128_1_0 : S7x128.Slices ![1, 0] S1x128
  slices_S7x128x128_S1x128x128_1_0_0 : S7x128x128.Slices ![1, 0, 0] S1x128x128
  slices_S7x128_S1x128_2_0 : S7x128.Slices ![2, 0] S1x128
  slices_S7x128x128_S1x128x128_2_0_0 : S7x128x128.Slices ![2, 0, 0] S1x128x128
  slices_S7x128_S1x128_3_0 : S7x128.Slices ![3, 0] S1x128
  slices_S7x128x128_S1x128x128_3_0_0 : S7x128x128.Slices ![3, 0, 0] S1x128x128
  slices_S7x128_S1x128_4_0 : S7x128.Slices ![4, 0] S1x128
  slices_S7x128x128_S1x128x128_4_0_0 : S7x128x128.Slices ![4, 0, 0] S1x128x128
  slices_S7x128_S1x128_5_0 : S7x128.Slices ![5, 0] S1x128
  slices_S7x128x128_S1x128x128_5_0_0 : S7x128x128.Slices ![5, 0, 0] S1x128x128
  slices_S7x128_S1x128_6_0 : S7x128.Slices ![6, 0] S1x128
  slices_S7x128x128_S1x128x128_6_0_0 : S7x128x128.Slices ![6, 0, 0] S1x128x128
  bcast_S64_S1x64_1 : S64.BroadcastsInDim S1x64 (![1] : Fin 1 → Fin S1x64.rank)
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x64.size a ≤ S128x64.size a
  hwx7_2 : ∀ i : grid7.Coords, EltTy.bits .f32 = 32 ∨ (Rect.block (s := S128x64) S128x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v97) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v108) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v15) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v113) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v124) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v15) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v129) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v130) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v140) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg3) S128x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v141) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S7x128x128 : Shape := ⟨3, ![7, 128, 128]⟩
abbrev S7x128 : Shape := ⟨2, ![7, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x64 : Shape := ⟨2, ![100000, 64]⟩
abbrev S1x64 : Shape := ⟨2, ![1, 64]⟩

abbrev nBuf : Space → Nat
  | .hbm => 256
  | .vmem => 0
  | .smem => 0
  | _ => 0

abbrev hbmTy0_0 (i : Nat) : BufTy := match i % 128 with
  | 0 => ⟨S100000x128, .f32⟩
  | 1 => ⟨S7x128x128, .f32⟩
  | 2 => ⟨S7x128, .f32⟩
  | 3 => ⟨S128x64, .f32⟩
  | 4 => ⟨S64, .f32⟩
  | 5 => ⟨S1600000, .i32⟩
  | 6 => ⟨S1600000, .i32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S1x128x128, .f32⟩
  | 32 => ⟨S128x128, .f32⟩
  | 33 => ⟨S1x128, .f32⟩
  | 34 => ⟨S128, .f32⟩
  | 35 => ⟨S100000x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S1x128x128, .f32⟩
  | 60 => ⟨S128x128, .f32⟩
  | 61 => ⟨S1x128, .f32⟩
  | 62 => ⟨S128, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x128x128, .f32⟩
  | 88 => ⟨S128x128, .f32⟩
  | 89 => ⟨S1x128, .f32⟩
  | 90 => ⟨S128, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S100000x128, .f32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S1x128x128, .f32⟩
  | 16 => ⟨S128x128, .f32⟩
  | 17 => ⟨S1x128, .f32⟩
  | 18 => ⟨S128, .f32⟩
  | 19 => ⟨S100000x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S1x128x128, .f32⟩
  | 44 => ⟨S128x128, .f32⟩
  | 45 => ⟨S1x128, .f32⟩
  | 46 => ⟨S128, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S1x128x128, .f32⟩
  | 72 => ⟨S128x128, .f32⟩
  | 73 => ⟨S1x128, .f32⟩
  | 74 => ⟨S128, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x128, .f32⟩
  | 115 => ⟨S100000x128, .f32⟩
  | 116 => ⟨S100000x64, .f32⟩
  | 117 => ⟨S1x64, .f32⟩
  | 118 => ⟨S100000x64, .f32⟩
  | 119 => ⟨S100000x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_cst : Ref sig .tc := ⟨.hbm, 56, rfl⟩
abbrev main_call0_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_11 : Ref sig .tc := ⟨.hbm, 93, rfl⟩
abbrev main_v69 : Ref sig .tc := ⟨.hbm, 94, rfl⟩
abbrev main_v70 : Ref sig .tc := ⟨.hbm, 95, rfl⟩
abbrev main_c_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call2_cst : Ref sig .tc := ⟨.hbm, 112, rfl⟩
abbrev main_call2_v0 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_14 : Ref sig .tc := ⟨.hbm, 121, rfl⟩
abbrev main_v92 : Ref sig .tc := ⟨.hbm, 122, rfl⟩
abbrev main_v93 : Ref sig .tc := ⟨.hbm, 123, rfl⟩
abbrev main_c_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_16 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_call3_cst : Ref sig .tc := ⟨.hbm, 140, rfl⟩
abbrev main_call3_v0 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_c_17 : Ref sig .tc := ⟨.hbm, 149, rfl⟩
abbrev main_v115 : Ref sig .tc := ⟨.hbm, 150, rfl⟩
abbrev main_v116 : Ref sig .tc := ⟨.hbm, 151, rfl⟩
abbrev main_c_18 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_19 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_call4_cst : Ref sig .tc := ⟨.hbm, 168, rfl⟩
abbrev main_call4_v0 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_c_20 : Ref sig .tc := ⟨.hbm, 177, rfl⟩
abbrev main_v138 : Ref sig .tc := ⟨.hbm, 178, rfl⟩
abbrev main_v139 : Ref sig .tc := ⟨.hbm, 179, rfl⟩
abbrev main_c_21 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_22 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_call5_cst : Ref sig .tc := ⟨.hbm, 196, rfl⟩
abbrev main_call5_v0 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_c_23 : Ref sig .tc := ⟨.hbm, 205, rfl⟩
abbrev main_v161 : Ref sig .tc := ⟨.hbm, 206, rfl⟩
abbrev main_v162 : Ref sig .tc := ⟨.hbm, 207, rfl⟩
abbrev main_c_24 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_25 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_call6_cst : Ref sig .tc := ⟨.hbm, 224, rfl⟩
abbrev main_call6_v0 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_c_26 : Ref sig .tc := ⟨.hbm, 229, rfl⟩
abbrev main_v180 : Ref sig .tc := ⟨.hbm, 230, rfl⟩
abbrev main_v181 : Ref sig .tc := ⟨.hbm, 231, rfl⟩
abbrev main_c_27 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_cst_28 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_cst_29 : Ref sig .tc := ⟨.hbm, 250, rfl⟩
abbrev main_v198 : Ref sig .tc := ⟨.hbm, 251, rfl⟩
abbrev main_v199 : Ref sig .tc := ⟨.hbm, 252, rfl⟩
abbrev main_cst_30 : Ref sig .tc := ⟨.hbm, 253, rfl⟩
abbrev main_v200 : Ref sig .tc := ⟨.hbm, 254, rfl⟩
abbrev main_v201 : Ref sig .tc := ⟨.hbm, 255, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«127991_j20306605375975_1_alg».proof.Proof.LibDense
import proofs.«127991_j20306605375975_1_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«127991_j20306605375975_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibGcnDense.lean ====
/-
  A stack of degree-normalised graph layers after the edge aggregation, on the extended reals, at any extents.

  One hidden layer takes the aggregated features `A` (one row per node), scales row `p` by the node's
  in-degree factor `nd (p, 0)`, multiplies by the weight matrix, adds a one-row bias, rectifies, and scales row `p`
  by the out-degree factor `ns (p, 0)` (the pre-scaling the next layer's aggregation wants):
  `hidden A nd ns W b (p, q) = max ((∑ k, (A (p, k) · nd p) · W (k, q)) + b q, 0) · ns p`.
  The last layer has no rectifier and no out-degree factor and ends in the logistic function:
  `head A nd W b (p, q) = 1 / (1 + exp (−((∑ k, (A (p, k) · nd p) · W (k, q)) + b q)))`.

  Both are row-local: the entry at `(p, q)` depends on row `p` of `A`, on the two factors of node `p`, on column
  `q` of the weights and on entry `q` of the bias (`hidden_at`, `head_at`) — what reading a block of rows against
  the whole arrays needs.  The vector unit spells a layer with the factor columns broadcast along the rows, the
  operands narrowed to bf16 (the identity on the extended reals), a matmul into a zero accumulator and the bias row
  broadcast to every row (`vecHidden`, `vecHead`); the host spells it with `broadcast_in_dim`, `dot_general`, a
  maximum with a broadcast scalar zero, and the logistic function expanded into negate, exponential, add one and
  divide (`hostHidden`, `hostHead`).  No finiteness is needed anywhere: no sum is re-associated.
-/
import proofs.«127991_j20306605375975_1_alg».proof.Proof.LibDense
import proofs.«127991_j20306605375975_1_alg».proof.Proof.LibRowBlocks
import proofs.«127991_j20306605375975_1_alg».proof.Proof.LibRowScale
import proofs.«127991_j20306605375975_1_alg».proof.Proof.LibBiasRow

noncomputable section

open scoped BigOperators

namespace Cert.GcnDense

open Idealize.ShloMosaic Idealize.ShloMosaic.ValueIdx Cert.Dense Cert.RowScale Cert.BiasRow

/-- One hidden layer after the aggregation: in-degree factor, weights, bias, rectifier, out-degree factor. -/
def hidden {M K N : ℕ} (A : Mat M K) (nd ns : Mat M 1) (W : Mat K N) (b : Mat 1 N) : Mat M N :=
  scaleRows (reluBias (mm (scaleRows A nd) W) b) ns

/-- The last layer after the aggregation: in-degree factor, weights, bias, logistic function. -/
def head {M K N : ℕ} (A : Mat M K) (nd : Mat M 1) (W : Mat K N) (b : Mat 1 N) : Mat M N :=
  fun i => Ideal.logistic (addRow (mm (scaleRows A nd) W) b i)

/-- The pre-activation's entry depends on one row of the aggregate, one factor and one column of the weights. -/
theorem pre_at {M M' K N N' : ℕ} (A : Mat M K) (nd : Mat M 1) (W : Mat K N)
    (A' : Mat M' K) (nd' : Mat M' 1) (W' : Mat K N')
    (j : (⟨2, ![M', N']⟩ : Shape).Idx) (i : (⟨2, ![M, N]⟩ : Shape).Idx)
    (hA : ∀ k : Fin K, A' (ix2 (c0 j) k) = A (ix2 (c0 i) k))
    (hnd : nd' (ix2 (c0 j) (0 : Fin 1)) = nd (ix2 (c0 i) (0 : Fin 1)))
    (hW : ∀ k : Fin K, W' (ix2 k (c1 j)) = W (ix2 k (c1 i))) :
    mm (scaleRows A' nd') W' j = mm (scaleRows A nd) W i :=
  Cert.RowScale.mm_at _ _ _ _ j i (fun k => scaleRows_at A nd A' nd' (ix2 (c0 j) k) (ix2 (c0 i) k) (hA k) hnd) hW

/-- Row locality of a hidden layer. -/
theorem hidden_at {M M' K N N' : ℕ} (A : Mat M K) (nd ns : Mat M 1) (W : Mat K N) (b : Mat 1 N)
    (A' : Mat M' K) (nd' ns' : Mat M' 1) (W' : Mat K N') (b' : Mat 1 N')
    (j : (⟨2, ![M', N']⟩ : Shape).Idx) (i : (⟨2, ![M, N]⟩ : Shape).Idx)
    (hA : ∀ k : Fin K, A' (ix2 (c0 j) k) = A (ix2 (c0 i) k))
    (hnd : nd' (ix2 (c0 j) (0 : Fin 1)) = nd (ix2 (c0 i) (0 : Fin 1)))
    (hns : ns' (ix2 (c0 j) (0 : Fin 1)) = ns (ix2 (c0 i) (0 : Fin 1)))
    (hW : ∀ k : Fin K, W' (ix2 k (c1 j)) = W (ix2 k (c1 i)))
    (hb : b' (ix2 (0 : Fin 1) (c1 j)) = b (ix2 (0 : Fin 1) (c1 i))) :
    hidden A' nd' ns' W' b' j = hidden A nd ns W b i :=
  scaleRows_at _ ns _ ns' j i
    (Cert.RowScale.reluBias_at _ b _ b' j i (pre_at A nd W A' nd' W' j i hA hnd hW) hb) hns

/-- Row locality of the last layer. -/
theorem head_at {M M' K N N' : ℕ} (A : Mat M K) (nd : Mat M 1) (W : Mat K N) (b : Mat 1 N)
    (A' : Mat M' K) (nd' : Mat M' 1) (W' : Mat K N') (b' : Mat 1 N')
    (j : (⟨2, ![M', N']⟩ : Shape).Idx) (i : (⟨2, ![M, N]⟩ : Shape).Idx)
    (hA : ∀ k : Fin K, A' (ix2 (c0 j) k) = A (ix2 (c0 i) k))
    (hnd : nd' (ix2 (c0 j) (0 : Fin 1)) = nd (ix2 (c0 i) (0 : Fin 1)))
    (hW : ∀ k : Fin K, W' (ix2 k (c1 j)) = W (ix2 k (c1 i)))
    (hb : b' (ix2 (0 : Fin 1) (c1 j)) = b (ix2 (0 : Fin 1) (c1 i))) :
    head A' nd' W' b' j = head A nd W b i :=
  congrArg Ideal.logistic (addRow_at _ b _ b' j i (pre_at A nd W A' nd' W' j i hA hnd hW) hb)

/-! ## The vector unit's spelling -/

/-- The vector unit's hidden layer over loaded blocks: same-shape casts, the factor columns broadcast along the
    rows, both matmul operands narrowed to bf16, a zero accumulator, the bias row broadcast to every row, the
    maximum with a zero splat. -/
theorem vecHidden {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x0 : FVec Ideal ⟨2, ![M, K]⟩ .f32) (x1 x2 : FVec Ideal ⟨2, ![M, 1]⟩ .f32)
    (x3 : FVec Ideal ⟨2, ![K, N]⟩ .f32) (x4 : FVec Ideal ⟨2, ![1, N]⟩ .f32)
    (cA : (⟨2, ![M, K]⟩ : Shape).ShapeCasts ⟨2, ![M, K]⟩) (cS : (⟨2, ![M, 1]⟩ : Shape).ShapeCasts ⟨2, ![M, 1]⟩)
    (cW : (⟨2, ![K, N]⟩ : Shape).ShapeCasts ⟨2, ![K, N]⟩) (cB : (⟨2, ![1, N]⟩ : Shape).ShapeCasts ⟨2, ![1, N]⟩)
    (bK : (⟨2, ![M, 1]⟩ : Shape).Broadcasts ⟨2, ![M, K]⟩) (bN : (⟨2, ![M, 1]⟩ : Shape).Broadcasts ⟨2, ![M, N]⟩)
    (bR : (⟨2, ![1, N]⟩ : Shape).Broadcasts ⟨2, ![M, N]⟩) (hbits : FTy.bf16.bits < FTy.f32.bits) :
    mulf (maximumf (addf (matmul (F := Ideal) D none
            (truncf .bf16 (mulf (shapeCast ⟨2, ![M, K]⟩ x0 cA) (broadcastTo ⟨2, ![M, K]⟩ (shapeCast ⟨2, ![M, 1]⟩ x1 cS) bK)) hbits)
            (truncf .bf16 (shapeCast ⟨2, ![K, N]⟩ x3 cW) hbits) (constant ⟨2, ![M, N]⟩ .f32 0x00000000#32))
          (broadcastTo ⟨2, ![M, N]⟩ (shapeCast ⟨2, ![1, N]⟩ x4 cB) bR))
        (broadcast ⟨2, ![M, N]⟩ (Scalar.ofBits (F := Ideal) .f32 0x00000000#32)))
      (broadcastTo ⟨2, ![M, N]⟩ (shapeCast ⟨2, ![M, 1]⟩ x2 cS) bN)
      = hidden x0 x1 x2 x3 x4 := by
  rw [shapeCast_self x0, shapeCast_self x1, shapeCast_self x2, shapeCast_self x3, shapeCast_self x4,
    vecScaleRows x0 x1 bK, matmul_zero_eq_mm D h1 h2 h3 h4 h5 h6, vecReluBias _ x4 bR, vecScaleRows _ x2 bN]
  rfl

/-- The vector unit's last layer over loaded blocks (the weight block narrowed without a cast in front). -/
theorem vecHead {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x0 : FVec Ideal ⟨2, ![M, K]⟩ .f32) (x1 : FVec Ideal ⟨2, ![M, 1]⟩ .f32)
    (x3 : FVec Ideal ⟨2, ![K, N]⟩ .f32) (x4 : FVec Ideal ⟨2, ![1, N]⟩ .f32)
    (cA : (⟨2, ![M, K]⟩ : Shape).ShapeCasts ⟨2, ![M, K]⟩) (cS : (⟨2, ![M, 1]⟩ : Shape).ShapeCasts ⟨2, ![M, 1]⟩)
    (cB : (⟨2, ![1, N]⟩ : Shape).ShapeCasts ⟨2, ![1, N]⟩)
    (bK : (⟨2, ![M, 1]⟩ : Shape).Broadcasts ⟨2, ![M, K]⟩)
    (bR : (⟨2, ![1, N]⟩ : Shape).Broadcasts ⟨2, ![M, N]⟩) (hbits : FTy.bf16.bits < FTy.f32.bits) :
    logistic (addf (matmul (F := Ideal) D none
            (truncf .bf16 (mulf (shapeCast ⟨2, ![M, K]⟩ x0 cA) (broadcastTo ⟨2, ![M, K]⟩ (shapeCast ⟨2, ![M, 1]⟩ x1 cS) bK)) hbits)
            (truncf .bf16 x3 hbits) (constant ⟨2, ![M, N]⟩ .f32 0x00000000#32))
          (broadcastTo ⟨2, ![M, N]⟩ (shapeCast ⟨2, ![1, N]⟩ x4 cB) bR))
      = head x0 x1 x3 x4 := by
  rw [shapeCast_self x0, shapeCast_self x1, shapeCast_self x4,
    vecScaleRows x0 x1 bK, matmul_zero_eq_mm D h1 h2 h3 h4 h5 h6, vecAddRow _ x4 bR]
  rfl

/-! ## The host's spelling -/

/-- A one-column array broadcast along the rows, read at an index. -/
theorem bcastCol_apply {M N : ℕ} {α : Type} (s : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h s (ix2 p q) = s (ix2 p (0 : Fin 1)) :=
  broadcastInDim_apply ![0, 1] h s (ix2 p q) (ix2 p (0 : Fin 1)) (fun a => by
    match a with
    | ⟨0, _⟩ =>
      show p.val = if M = 1 then 0 else p.val
      split
      · have := p.isLt; omega
      · rfl
    | ⟨1, _⟩ => rfl)

/-- A one-row array broadcast to every row, read at an index. -/
theorem bcastRow_apply {M N : ℕ} {α : Type} (b : (⟨2, ![1, N]⟩ : Shape).Idx → α)
    (h : (⟨2, ![1, N]⟩ : Shape).BroadcastsInDim ⟨2, ![M, N]⟩ ![0, 1]) (p : Fin M) (q : Fin N) :
    broadcastInDim ⟨2, ![M, N]⟩ ![0, 1] h b (ix2 p q) = b (ix2 (0 : Fin 1) q) :=
  broadcastInDim_apply ![0, 1] h b (ix2 p q) (ix2 (0 : Fin 1) q) (fun a => by
    match a with
    | ⟨0, _⟩ => rfl
    | ⟨1, _⟩ =>
      show q.val = if N = 1 then 0 else q.val
      split
      · have := q.isLt; omega
      · rfl)

/-- The host's row scaling by a column: the column broadcast along the rows, multiplied in. -/
theorem hostScaleCol {M N : ℕ} (G : FVec Ideal ⟨2, ![M, N]⟩ .f32) (s : FVec Ideal ⟨2, ![M, 1]⟩ .f32)
    (h : (⟨2, ![M, 1]⟩ : Shape).BroadcastsInDim ⟨2, ![M, N]⟩ ![0, 1]) :
    mulf G (broadcastInDim ⟨2, ![M, N]⟩ ![0, 1] h s) = scaleRows G s := by
  funext i
  obtain ⟨p, q, rfl⟩ : ∃ (p : Fin M) (q : Fin N), i = ix2 p q := ⟨i 0, i 1, eq_ix2 i⟩
  show G (ix2 p q) * broadcastInDim ⟨2, ![M, N]⟩ ![0, 1] h s (ix2 p q) = _
  rw [bcastCol_apply]
  rfl

/-- The host's bias: the one-row array broadcast to every row, added. -/
theorem hostAddRowMat {M N : ℕ} (X : FVec Ideal ⟨2, ![M, N]⟩ .f32) (b : FVec Ideal ⟨2, ![1, N]⟩ .f32)
    (h : (⟨2, ![1, N]⟩ : Shape).BroadcastsInDim ⟨2, ![M, N]⟩ ![0, 1]) :
    addf X (broadcastInDim ⟨2, ![M, N]⟩ ![0, 1] h b) = addRow X b := by
  funext i
  obtain ⟨p, q, rfl⟩ : ∃ (p : Fin M) (q : Fin N), i = ix2 p q := ⟨i 0, i 1, eq_ix2 i⟩
  show X (ix2 p q) + broadcastInDim ⟨2, ![M, N]⟩ ![0, 1] h b (ix2 p q) = _
  rw [bcastRow_apply]
  rfl

/-- A scalar broadcast everywhere, read at an index. -/
theorem bcastScalar_apply {s : Shape} (w : BitVec 32) (h0 : (⟨0, ![]⟩ : Shape).BroadcastsInDim s ![]) (i : s.Idx) :
    broadcastInDim s ![] h0 (constant (F := Ideal) ⟨0, ![]⟩ .f32 w) i = Ideal.ofBits .f32 w :=
  broadcastInDim_apply ![] h0 _ i ix0 (fun a => a.elim0)

/-- The host's rectifier: the maximum with a broadcast scalar zero. -/
theorem hostRelu {s : Shape} (X : FVec Ideal s .f32) (h0 : (⟨0, ![]⟩ : Shape).BroadcastsInDim s ![]) :
    maximumf X (broadcastInDim s ![] h0 (constant (F := Ideal) ⟨0, ![]⟩ .f32 0x00000000#32)) = fun i => max (X i) 0 := by
  funext i
  show max (X i) (broadcastInDim s ![] h0 (constant (F := Ideal) ⟨0, ![]⟩ .f32 0x00000000#32) i) = _
  rw [bcastScalar_apply, Ideal.ofBits_zero_f32]

/-- The host's hidden layer: `broadcast_in_dim` of the factor columns and of the bias row, `dot_general`, the
    maximum with a broadcast scalar zero. -/
theorem hostHidden {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision)
    (S : FVec Ideal ⟨2, ![M, K]⟩ .f32) (nd ns : FVec Ideal ⟨2, ![M, 1]⟩ .f32)
    (W : FVec Ideal ⟨2, ![K, N]⟩ .f32) (b : FVec Ideal ⟨2, ![1, N]⟩ .f32)
    (hK : (⟨2, ![M, 1]⟩ : Shape).BroadcastsInDim ⟨2, ![M, K]⟩ ![0, 1])
    (hN : (⟨2, ![M, 1]⟩ : Shape).BroadcastsInDim ⟨2, ![M, N]⟩ ![0, 1])
    (hR : (⟨2, ![1, N]⟩ : Shape).BroadcastsInDim ⟨2, ![M, N]⟩ ![0, 1])
    (h0 : (⟨0, ![]⟩ : Shape).BroadcastsInDim ⟨2, ![M, N]⟩ ![]) :
    mulf (maximumf (addf (Host.dotGeneral (F := Ideal) D prec (mulf S (broadcastInDim ⟨2, ![M, K]⟩ ![0, 1] hK nd)) W)
            (broadcastInDim ⟨2, ![M, N]⟩ ![0, 1] hR b))
          (broadcastInDim ⟨2, ![M, N]⟩ ![] h0 (constant (F := Ideal) ⟨0, ![]⟩ .f32 0x00000000#32)))
        (broadcastInDim ⟨2, ![M, N]⟩ ![0, 1] hN ns)
      = hidden S nd ns W b := by
  rw [hostScaleCol S nd hK, hostDot_eq_mm D h1 h2 h3 h4 h5 h6, hostAddRowMat _ b hR, hostRelu, hostScaleCol _ ns hN]
  rfl

/-- The f32 word of one. -/
theorem ofBits_one : Ideal.ofBits .f32 0x3F800000#32 = 1 := by
  simp [Ideal.ofBits, Ideal.ieee, -EReal.coe_mul]; norm_num

/-- The host's last layer: the logistic function expanded into negate, exponential, add one, divide. -/
theorem hostHead {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision)
    (S : FVec Ideal ⟨2, ![M, K]⟩ .f32) (nd : FVec Ideal ⟨2, ![M, 1]⟩ .f32)
    (W : FVec Ideal ⟨2, ![K, N]⟩ .f32) (b : FVec Ideal ⟨2, ![1, N]⟩ .f32)
    (hK : (⟨2, ![M, 1]⟩ : Shape).BroadcastsInDim ⟨2, ![M, K]⟩ ![0, 1])
    (hR : (⟨2, ![1, N]⟩ : Shape).BroadcastsInDim ⟨2, ![M, N]⟩ ![0, 1])
    (h0 h0' : (⟨0, ![]⟩ : Shape).BroadcastsInDim ⟨2, ![M, N]⟩ ![]) :
    Host.divf (broadcastInDim ⟨2, ![M, N]⟩ ![] h0 (constant (F := Ideal) ⟨0, ![]⟩ .f32 0x3F800000#32))
        (addf (broadcastInDim ⟨2, ![M, N]⟩ ![] h0' (constant (F := Ideal) ⟨0, ![]⟩ .f32 0x3F800000#32))
          (Host.exp (Host.negf (addf (Host.dotGeneral (F := Ideal) D prec (mulf S (broadcastInDim ⟨2, ![M, K]⟩ ![0, 1] hK nd)) W)
            (broadcastInDim ⟨2, ![M, N]⟩ ![0, 1] hR b)))))
      = head S nd W b := by
  rw [hostScaleCol S nd hK, hostDot_eq_mm D h1 h2 h3 h4 h5 h6, hostAddRowMat _ b hR]
  funext i
  show FloatOps.hostDivf (broadcastInDim ⟨2, ![M, N]⟩ ![] h0 (constant (F := Ideal) ⟨0, ![]⟩ .f32 0x3F800000#32) i)
      (FloatOps.addf (broadcastInDim ⟨2, ![M, N]⟩ ![] h0' (constant (F := Ideal) ⟨0, ![]⟩ .f32 0x3F800000#32) i)
        (FloatOps.hostUnary .exp (FloatOps.hostNegf (addRow (mm (scaleRows S nd) W) b i)))) = _
  rw [bcastScalar_apply, ofBits_one]
  rfl

end Cert.GcnDense

end
-- ==== Proof.Region0.lean ====
/-
  Pallas call 0 of the stack (hidden layer 0): what its output array holds after the run, as one function of the
  arrays the region finds.  The body's one store writes `hidden` of the five loaded blocks; block `t` of the
  aggregate, of the two factor columns and of the output is rows `5000 t … 5000 t + 4999`, while the weight matrix
  and the bias row are read whole at every point; a hidden layer is row-local, so what point `t` writes back is block
  `t` of `hidden` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the hidden layer of its five loaded blocks. -/
theorem pay0 (x0 : Vec Ideal S5000x128 .f32) (x1 : Vec Ideal S5000x1 .f32) (x3 : Vec Ideal S128x128 .f32)
    (x4 : Vec Ideal S1x128 .f32) (x2 : Vec Ideal S5000x1 .f32) :
    k0_pay1 (F := Ideal) x0 x1 x3 x4 x2 = hidden (M := 5000) (K := 128) (N := 128) x0 x1 x2 x3 x4 := by
  unfold k0_pay1
  exact vecHidden dot_S5000x128_S128x128_S5000x128_1_0_0_1_n_n rfl rfl rfl rfl rfl rfl x0 x1 x2 x3 x4 _ _ _ _ _ _ _ _

/-- The printed index maps over the grid: the row-blocked windows sit at block row `t`, column block 0; the weights
    and the bias are at block (0, 0) at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the hidden layer of the whole arrays. -/
theorem flushed0 (c : Dev nD) (t : Fin cfg0.N) :
    (dat0 V c).flushed 5 t = ((cfg0.win 5).blk t).view.read (Elt Ideal)
      (hidden (M := 100000) (K := 128) (N := 128) (V c main_v28) (V c main_v16) (V c main_v15) (V c main_v33) (V c main_v31)) := by
  show (cfg0.win 5).cut (grid0.coords t) ((dat0 V c).after 5 t) = _
  rw [after0_5]
  unfold out0_5
  rw [View.canon_unit_zero hz0]
  simp only [View.ld_unit_zero (S := S5000x128) hz0, View.ld_unit_zero (S := S5000x1) hz0,
    View.ld_unit_zero (S := S128x128) hz0, View.ld_unit_zero (S := S1x128) hz0]
  rw [pay0]
  obtain ⟨e00, e01, e10, e11, e20, e21, e30, e31, e40, e41, e50, e51⟩ := idx0 t
  funext j
  show hidden (M := 5000) (K := 128) (N := 128) (iblk0 V c 0 t) (iblk0 V c 1 t) (iblk0 V c 2 t) (iblk0 V c 3 t) (iblk0 V c 4 t)
      ((cfg0.win 5).xinj (grid0.coords t) j)
    = hidden (M := 100000) (K := 128) (N := 128) (V c main_v28) (V c main_v16) (V c main_v15) (V c main_v33) (V c main_v31)
      (((cfg0.win 5).blk t).view.emb j)
  have hj0 : (j 0).val < 5000 := (j 0).isLt
  have hj1 : (j 1).val < 128 := (j 1).isLt
  refine hidden_at (V c main_v28) (V c main_v16) (V c main_v15) (V c main_v33) (V c main_v31)
    (iblk0 V c 0 t) (iblk0 V c 1 t) (iblk0 V c 2 t) (iblk0 V c 3 t) (iblk0 V c 4 t) _ _ ?_ ?_ ?_ ?_ ?_
  · intro q
    show V c main_v28 (((cfg0.win 0).blk t).view.emb (ix2 (⟨(j 0).val, hj0⟩ : Fin 5000) q)) = V c main_v28 _
    refine congrArg (V c main_v28) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * q.val = q.val; omega
  · show V c main_v16 (((cfg0.win 1).blk t).view.emb (ix2 (⟨(j 0).val, hj0⟩ : Fin 5000) (0 : Fin 1))) = V c main_v16 _
    refine congrArg (V c main_v16) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 1 + 1 * 0 = 0; omega
  · show V c main_v15 (((cfg0.win 2).blk t).view.emb (ix2 (⟨(j 0).val, hj0⟩ : Fin 5000) (0 : Fin 1))) = V c main_v15 _
    refine congrArg (V c main_v15) (funext fun a => Fin.ext ?_)
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 1 + 1 * 0 = 0; omega
  · intro q
    show V c main_v33 (((cfg0.win 3).blk t).view.emb (ix2 q (⟨(j 1).val, hj1⟩ : Fin 128))) = V c main_v33 _
    refine congrArg (V c main_v33) (funext fun a => Fin.ext ?_)
    match a with
    | ⟨0, _⟩ => show win0_3.index t (0 : Fin 2) * 128 + 1 * q.val = q.val; omega
    | ⟨1, _⟩ => show win0_3.index t (1 : Fin 2) * 128 + 1 * (j 1).val = win0_5.index t (1 : Fin 2) * 128 + 1 * (j 1).val; omega
  · show V c main_v31 (((cfg0.win 4).blk t).view.emb (ix2 (0 : Fin 1) (⟨(j 1).val, hj1⟩ : Fin 128))) = V c main_v31 _
    refine congrArg (V c main_v31) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

/-- Row `r` lies in the block of point `r / 5000`: the twenty blocks cover the array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, -, -, -, -, e50, e51⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the hidden layer of the arrays the region finds. -/
theorem final0 (c : Dev nD) :
    (dat0 V c).arrAt 5 cfg0.N
      = hidden (M := 100000) (K := 128) (N := 128) (V c main_v28) (V c main_v16) (V c main_v15) (V c main_v33) (V c main_v31) :=
  (dat0 V c).arrAt_eq_of_cover 5 _ (fun t _ => flushed0 V c t) cover0

/-- An input window's array ends as the region finds it. -/
theorem kept0 (c : Dev nD) (w : Fin cfg0.W) (hin : (cfg0.win w).isOut = false) :
    (dat0 V c).arrAt w cfg0.N = V c (Pipeline.arrRef spec0 w) :=
  ((dat0 V c).arrAt_in w hin cfg0.N).trans (A_eq0 V c w)

end Cert.KernelIdeal.Layers

end
-- ==== Proof.HostSpec.lean ====
/-
  The host-side pieces of the graph network, as whole-array functions of the argument arrays, at any float model.

  `agg H src dst` is the edge aggregation: row `e` of the gathered array is row `src e` of `H` (a negative entry
  wrapped once by the number of nodes, as the host normalises indices), and the gathered rows are summed into a zero
  array at row `dst e`.  `normCol idx` is the degree factor as a one-column array: the count of the edges whose
  entry of `idx` is the node (a sum of ones), clamped below by one, to the power −1/2.  `feat0` is the first layer's
  input, the features with row `p` scaled by the out-degree factor.  `wSlice k` and `bRow k` are hidden layer `k`'s
  weight matrix and its bias laid out as one row, cut from the stacked parameters; `bOut` the last layer's bias as
  one row.  Both programs apply exactly these operations, so nothing here is ever opened: the aggregation and the
  degree factors are carried as opaque functions.
-/
import proofs.«127991_j20306605375975_1_alg».proof.Proof.Gen.KernelIdeal

noncomputable section

namespace Cert.KernelIdeal.Spec

open Cert.KernelIdeal Cert.KernelIdeal.Facts₀ Cert.KernelIdeal.Facts Idealize.ShloMosaic

variable {F : FTy → Type} [FloatOps F]

/-- The edge aggregation: gather the rows at the (wrapped) source entries, sum them at the destination entries. -/
def agg (H : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The degree factor of every node as a one-column array: (max (number of edges with this entry, 1))^(−1/2). -/
def normCol (idx : (⟨S1600000, .i32⟩ : BufTy).Contents (Elt F)) : (⟨S100000x1, .f32⟩ : BufTy).Contents (Elt F) :=
  broadcastInDim S100000x1 ![0] bcast_S100000_S100000x1_0
    (Host.powf
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 idx)
          (broadcastInDim S1600000 ![] bcast_S_S1600000 (constant S_ .f32 0x3F800000#32)))
        (broadcastInDim S100000 ![] bcast_S_S100000 (constant S_ .f32 0x3F800000#32)))
      (broadcastInDim S100000 ![] bcast_S_S100000 (constant S_ .f32 0xBF000000#32)))

/-- The first layer's input: the features, row `p` scaled by the out-degree factor of node `p`. -/
def feat0 (x : (⟨S100000x128, .f32⟩ : BufTy).Contents (Elt F)) (src : (⟨S1600000, .i32⟩ : BufTy).Contents (Elt F)) : (⟨S100000x128, .f32⟩ : BufTy).Contents (Elt F) :=
  mulf x (broadcastInDim S100000x128 ![0, 1] bcast_S100000x1_S100000x128_0_1 (normCol src))

/-- The last layer's bias laid out as one row. -/
def bOut (b : (⟨S64, .f32⟩ : BufTy).Contents (Elt F)) : (⟨S1x64, .f32⟩ : BufTy).Contents (Elt F) :=
  broadcastInDim S1x64 ![1] bcast_S64_S1x64_1 b

/-- Hidden layer 0's weight matrix, cut from the stacked weights. -/
def wSlice0 (w : (⟨S7x128x128, .f32⟩ : BufTy).Contents (Elt F)) : (⟨S128x128, .f32⟩ : BufTy).Contents (Elt F) :=
  shapeCast S128x128 (extractStridedSlice S1x128x128 ![0, 0, 0] w slices_S7x128x128_S1x128x128_0_0_0) shapeCasts_S1x128x128_S128x128

/-- Hidden layer 0's bias, cut from the stacked biases and laid out as one row. -/
def bRow0 (b : (⟨S7x128, .f32⟩ : BufTy).Contents (Elt F)) : (⟨S1x128, .f32⟩ : BufTy).Contents (Elt F) :=
  broadcastInDim S1x128 ![1] bcast_S128_S1x128_1
    (shapeCast S128 (extractStridedSlice S1x128 ![0, 0] b slices_S7x128_S1x128_0_0) shapeCasts_S1x128_S128)

/-- Hidden layer 1's weight matrix, cut from the stacked weights. -/
def wSlice1 (w : (⟨S7x128x128, .f32⟩ : BufTy).Contents (Elt F)) : (⟨S128x128, .f32⟩ : BufTy).Contents (Elt F) :=
  shapeCast S128x128 (extractStridedSlice S1x128x128 ![1, 0, 0] w slices_S7x128x128_S1x128x128_1_0_0) shapeCasts_S1x128x128_S128x128

/-- Hidden layer 1's bias, cut from the stacked biases and laid out as one row. -/
def bRow1 (b : (⟨S7x128, .f32⟩ : BufTy).Contents (Elt F)) : (⟨S1x128, .f32⟩ : BufTy).Contents (Elt F) :=
  broadcastInDim S1x128 ![1] bcast_S128_S1x128_1
    (shapeCast S128 (extractStridedSlice S1x128 ![1, 0] b slices_S7x128_S1x128_1_0) shapeCasts_S1x128_S128)

/-- Hidden layer 2's weight matrix, cut from the stacked weights. -/
def wSlice2 (w : (⟨S7x128x128, .f32⟩ : BufTy).Contents (Elt F)) : (⟨S128x128, .f32⟩ : BufTy).Contents (Elt F) :=
  shapeCast S128x128 (extractStridedSlice S1x128x128 ![2, 0, 0] w slices_S7x128x128_S1x128x128_2_0_0) shapeCasts_S1x128x128_S128x128

/-- Hidden layer 2's bias, cut from the stacked biases and laid out as one row. -/
def bRow2 (b : (⟨S7x128, .f32⟩ : BufTy).Contents (Elt F)) : (⟨S1x128, .f32⟩ : BufTy).Contents (Elt F) :=
  broadcastInDim S1x128 ![1] bcast_S128_S1x128_1
    (shapeCast S128 (extractStridedSlice S1x128 ![2, 0] b slices_S7x128_S1x128_2_0) shapeCasts_S1x128_S128)

/-- Hidden layer 3's weight matrix, cut from the stacked weights. -/
def wSlice3 (w : (⟨S7x128x128, .f32⟩ : BufTy).Contents (Elt F)) : (⟨S128x128, .f32⟩ : BufTy).Contents (Elt F) :=
  shapeCast S128x128 (extractStridedSlice S1x128x128 ![3, 0, 0] w slices_S7x128x128_S1x128x128_3_0_0) shapeCasts_S1x128x128_S128x128

/-- Hidden layer 3's bias, cut from the stacked biases and laid out as one row. -/
def bRow3 (b : (⟨S7x128, .f32⟩ : BufTy).Contents (Elt F)) : (⟨S1x128, .f32⟩ : BufTy).Contents (Elt F) :=
  broadcastInDim S1x128 ![1] bcast_S128_S1x128_1
    (shapeCast S128 (extractStridedSlice S1x128 ![3, 0] b slices_S7x128_S1x128_3_0) shapeCasts_S1x128_S128)

/-- Hidden layer 4's weight matrix, cut from the stacked weights. -/
def wSlice4 (w : (⟨S7x128x128, .f32⟩ : BufTy).Contents (Elt F)) : (⟨S128x128, .f32⟩ : BufTy).Contents (Elt F) :=
  shapeCast S128x128 (extractStridedSlice S1x128x128 ![4, 0, 0] w slices_S7x128x128_S1x128x128_4_0_0) shapeCasts_S1x128x128_S128x128

/-- Hidden layer 4's bias, cut from the stacked biases and laid out as one row. -/
def bRow4 (b : (⟨S7x128, .f32⟩ : BufTy).Contents (Elt F)) : (⟨S1x128, .f32⟩ : BufTy).Contents (Elt F) :=
  broadcastInDim S1x128 ![1] bcast_S128_S1x128_1
    (shapeCast S128 (extractStridedSlice S1x128 ![4, 0] b slices_S7x128_S1x128_4_0) shapeCasts_S1x128_S128)

/-- Hidden layer 5's weight matrix, cut from the stacked weights. -/
def wSlice5 (w : (⟨S7x128x128, .f32⟩ : BufTy).Contents (Elt F)) : (⟨S128x128, .f32⟩ : BufTy).Contents (Elt F) :=
  shapeCast S128x128 (extractStridedSlice S1x128x128 ![5, 0, 0] w slices_S7x128x128_S1x128x128_5_0_0) shapeCasts_S1x128x128_S128x128

/-- Hidden layer 5's bias, cut from the stacked biases and laid out as one row. -/
def bRow5 (b : (⟨S7x128, .f32⟩ : BufTy).Contents (Elt F)) : (⟨S1x128, .f32⟩ : BufTy).Contents (Elt F) :=
  broadcastInDim S1x128 ![1] bcast_S128_S1x128_1
    (shapeCast S128 (extractStridedSlice S1x128 ![5, 0] b slices_S7x128_S1x128_5_0) shapeCasts_S1x128_S128)

/-- Hidden layer 6's weight matrix, cut from the stacked weights. -/
def wSlice6 (w : (⟨S7x128x128, .f32⟩ : BufTy).Contents (Elt F)) : (⟨S128x128, .f32⟩ : BufTy).Contents (Elt F) :=
  shapeCast S128x128 (extractStridedSlice S1x128x128 ![6, 0, 0] w slices_S7x128x128_S1x128x128_6_0_0) shapeCasts_S1x128x128_S128x128

/-- Hidden layer 6's bias, cut from the stacked biases and laid out as one row. -/
def bRow6 (b : (⟨S7x128, .f32⟩ : BufTy).Contents (Elt F)) : (⟨S1x128, .f32⟩ : BufTy).Contents (Elt F) :=
  broadcastInDim S1x128 ![1] bcast_S128_S1x128_1
    (shapeCast S128 (extractStridedSlice S1x128 ![6, 0] b slices_S7x128_S1x128_6_0) shapeCasts_S1x128_S128)

end Cert.KernelIdeal.Spec

end
-- ==== Proof.Host0.lean ====
/-
  The host operations before the first pallas_call, read at the buffers the run needs, from ANY buffer contents `W`:
  the two degree-factor columns, the first aggregate (of the out-degree-scaled features), layer 0's weights and bias
  row; and the argument buffers keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h0_v15 : StableHlo.after (hostOps0 (F := F)) W (Proc.devRef .tc main_v15) = normCol (W (Proc.devRef .tc main_arg5)) := by
  after_results_simp
  rfl

theorem h0_v16 : StableHlo.after (hostOps0 (F := F)) W (Proc.devRef .tc main_v16) = normCol (W (Proc.devRef .tc main_arg6)) := by
  after_results_simp
  rfl

theorem h0_agg : StableHlo.after (hostOps0 (F := F)) W (Proc.devRef .tc main_v28)
    = agg (feat0 (W (Proc.devRef .tc main_arg0)) (W (Proc.devRef .tc main_arg5))) (W (Proc.devRef .tc main_arg5)) (W (Proc.devRef .tc main_arg6)) := by
  after_results_simp
  rfl

theorem h0_w : StableHlo.after (hostOps0 (F := F)) W (Proc.devRef .tc main_v33) = wSlice0 (W (Proc.devRef .tc main_arg1)) := by
  after_results_simp
  rfl

theorem h0_b : StableHlo.after (hostOps0 (F := F)) W (Proc.devRef .tc main_v31) = bRow0 (W (Proc.devRef .tc main_arg2)) := by
  after_results_simp
  rfl

theorem h0_keep_arg1 : StableHlo.after (hostOps0 (F := F)) W (Proc.devRef .tc main_arg1) = W (Proc.devRef .tc main_arg1) := by
  after_results_simp

theorem h0_keep_arg2 : StableHlo.after (hostOps0 (F := F)) W (Proc.devRef .tc main_arg2) = W (Proc.devRef .tc main_arg2) := by
  after_results_simp

theorem h0_keep_arg3 : StableHlo.after (hostOps0 (F := F)) W (Proc.devRef .tc main_arg3) = W (Proc.devRef .tc main_arg3) := by
  after_results_simp

theorem h0_keep_arg4 : StableHlo.after (hostOps0 (F := F)) W (Proc.devRef .tc main_arg4) = W (Proc.devRef .tc main_arg4) := by
  after_results_simp

theorem h0_keep_arg5 : StableHlo.after (hostOps0 (F := F)) W (Proc.devRef .tc main_arg5) = W (Proc.devRef .tc main_arg5) := by
  after_results_simp

theorem h0_keep_arg6 : StableHlo.after (hostOps0 (F := F)) W (Proc.devRef .tc main_arg6) = W (Proc.devRef .tc main_arg6) := by
  after_results_simp

end Cert.KernelIdeal.Layers

end
-- ==== Proof.Region1.lean ====
/-
  Pallas call 1 of the stack (hidden layer 1): what its output array holds after the run, as one function of the
  arrays the region finds.  The body's one store writes `hidden` of the five loaded blocks; block `t` of the
  aggregate, of the two factor columns and of the output is rows `5000 t … 5000 t + 4999`, while the weight matrix
  and the bias row are read whole at every point; a hidden layer is row-local, so what point `t` writes back is block
  `t` of `hidden` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's stored value is the hidden layer of its five loaded blocks. -/
theorem pay1 (x0 : Vec Ideal S5000x128 .f32) (x1 : Vec Ideal S5000x1 .f32) (x3 : Vec Ideal S128x128 .f32)
    (x4 : Vec Ideal S1x128 .f32) (x2 : Vec Ideal S5000x1 .f32) :
    k1_pay1 (F := Ideal) x0 x1 x3 x4 x2 = hidden (M := 5000) (K := 128) (N := 128) x0 x1 x2 x3 x4 := by
  unfold k1_pay1
  exact vecHidden dot_S5000x128_S128x128_S5000x128_1_0_0_1_n_n rfl rfl rfl rfl rfl rfl x0 x1 x2 x3 x4 _ _ _ _ _ _ _ _

/-- The printed index maps over the grid: the row-blocked windows sit at block row `t`, column block 0; the weights
    and the bias are at block (0, 0) at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the hidden layer of the whole arrays. -/
theorem flushed1 (c : Dev nD) (t : Fin cfg1.N) :
    (dat1 V c).flushed 5 t = ((cfg1.win 5).blk t).view.read (Elt Ideal)
      (hidden (M := 100000) (K := 128) (N := 128) (V c main_v44) (V c main_v16) (V c main_v15) (V c main_v49) (V c main_v47)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S5000x1) hz1,
    View.ld_unit_zero (S := S128x128) hz1, View.ld_unit_zero (S := S1x128) hz1]
  rw [pay1]
  obtain ⟨e00, e01, e10, e11, e20, e21, e30, e31, e40, e41, e50, e51⟩ := idx1 t
  funext j
  show hidden (M := 5000) (K := 128) (N := 128) (iblk1 V c 0 t) (iblk1 V c 1 t) (iblk1 V c 2 t) (iblk1 V c 3 t) (iblk1 V c 4 t)
      ((cfg1.win 5).xinj (grid1.coords t) j)
    = hidden (M := 100000) (K := 128) (N := 128) (V c main_v44) (V c main_v16) (V c main_v15) (V c main_v49) (V c main_v47)
      (((cfg1.win 5).blk t).view.emb j)
  have hj0 : (j 0).val < 5000 := (j 0).isLt
  have hj1 : (j 1).val < 128 := (j 1).isLt
  refine hidden_at (V c main_v44) (V c main_v16) (V c main_v15) (V c main_v49) (V c main_v47)
    (iblk1 V c 0 t) (iblk1 V c 1 t) (iblk1 V c 2 t) (iblk1 V c 3 t) (iblk1 V c 4 t) _ _ ?_ ?_ ?_ ?_ ?_
  · intro q
    show V c main_v44 (((cfg1.win 0).blk t).view.emb (ix2 (⟨(j 0).val, hj0⟩ : Fin 5000) q)) = V c main_v44 _
    refine congrArg (V c main_v44) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * q.val = q.val; omega
  · show V c main_v16 (((cfg1.win 1).blk t).view.emb (ix2 (⟨(j 0).val, hj0⟩ : Fin 5000) (0 : Fin 1))) = V c main_v16 _
    refine congrArg (V c main_v16) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  · show V c main_v15 (((cfg1.win 2).blk t).view.emb (ix2 (⟨(j 0).val, hj0⟩ : Fin 5000) (0 : Fin 1))) = V c main_v15 _
    refine congrArg (V c main_v15) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  · intro q
    show V c main_v49 (((cfg1.win 3).blk t).view.emb (ix2 q (⟨(j 1).val, hj1⟩ : Fin 128))) = V c main_v49 _
    refine congrArg (V c main_v49) (funext fun a => Fin.ext ?_)
    match a with
    | ⟨0, _⟩ => show win1_3.index t (0 : Fin 2) * 128 + 1 * q.val = q.val; omega
    | ⟨1, _⟩ => show win1_3.index t (1 : Fin 2) * 128 + 1 * (j 1).val = win1_5.index t (1 : Fin 2) * 128 + 1 * (j 1).val; omega
  · show V c main_v47 (((cfg1.win 4).blk t).view.emb (ix2 (0 : Fin 1) (⟨(j 1).val, hj1⟩ : Fin 128))) = V c main_v47 _
    refine congrArg (V c main_v47) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v50).slice (win1_5.rect t)).set ↔ _
  rw [View.set_slice_whole, Rect.mem_set_unit]
  exact Iff.rfl

/-- Row `r` lies in the block of point `r / 5000`: the twenty blocks cover the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show _ < grid1.N; rw [hN]; omega⟩, rfl⟩
  obtain ⟨-, -, -, -, -, -, -, -, -, -, e50, e51⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the hidden layer of the arrays the region finds. -/
theorem final1 (c : Dev nD) :
    (dat1 V c).arrAt 5 cfg1.N
      = hidden (M := 100000) (K := 128) (N := 128) (V c main_v44) (V c main_v16) (V c main_v15) (V c main_v49) (V c main_v47) :=
  (dat1 V c).arrAt_eq_of_cover 5 _ (fun t _ => flushed1 V c t) cover1

/-- An input window's array ends as the region finds it. -/
theorem kept1 (c : Dev nD) (w : Fin cfg1.W) (hin : (cfg1.win w).isOut = false) :
    (dat1 V c).arrAt w cfg1.N = V c (Pipeline.arrRef spec1 w) :=
  ((dat1 V c).arrAt_in w hin cfg1.N).trans (A_eq1 V c w)

end Cert.KernelIdeal.Layers

end
-- ==== Proof.Host1.lean ====
/-
  The host operations between pallas_calls 0 and 1, read at the buffers the run needs, from ANY buffer contents
  `W`: the aggregate of the previous call's output, layer 1's weights and bias row; and the degree-factor columns and
  the argument buffers keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h1_agg : StableHlo.after (hostOps1 (F := F)) W (Proc.devRef .tc main_v44)
    = agg (W (Proc.devRef .tc main_v34)) (W (Proc.devRef .tc main_arg5)) (W (Proc.devRef .tc main_arg6)) := by
  after_results_simp
  rfl

theorem h1_w : StableHlo.after (hostOps1 (F := F)) W (Proc.devRef .tc main_v49) = wSlice1 (W (Proc.devRef .tc main_arg1)) := by
  after_results_simp
  rfl

theorem h1_b : StableHlo.after (hostOps1 (F := F)) W (Proc.devRef .tc main_v47) = bRow1 (W (Proc.devRef .tc main_arg2)) := by
  after_results_simp
  rfl

theorem h1_keep_v15 : StableHlo.after (hostOps1 (F := F)) W (Proc.devRef .tc main_v15) = W (Proc.devRef .tc main_v15) := by
  after_results_simp

theorem h1_keep_v16 : StableHlo.after (hostOps1 (F := F)) W (Proc.devRef .tc main_v16) = W (Proc.devRef .tc main_v16) := by
  after_results_simp

theorem h1_keep_arg1 : StableHlo.after (hostOps1 (F := F)) W (Proc.devRef .tc main_arg1) = W (Proc.devRef .tc main_arg1) := by
  after_results_simp

theorem h1_keep_arg2 : StableHlo.after (hostOps1 (F := F)) W (Proc.devRef .tc main_arg2) = W (Proc.devRef .tc main_arg2) := by
  after_results_simp

theorem h1_keep_arg3 : StableHlo.after (hostOps1 (F := F)) W (Proc.devRef .tc main_arg3) = W (Proc.devRef .tc main_arg3) := by
  after_results_simp

theorem h1_keep_arg4 : StableHlo.after (hostOps1 (F := F)) W (Proc.devRef .tc main_arg4) = W (Proc.devRef .tc main_arg4) := by
  after_results_simp

theorem h1_keep_arg5 : StableHlo.after (hostOps1 (F := F)) W (Proc.devRef .tc main_arg5) = W (Proc.devRef .tc main_arg5) := by
  after_results_simp

theorem h1_keep_arg6 : StableHlo.after (hostOps1 (F := F)) W (Proc.devRef .tc main_arg6) = W (Proc.devRef .tc main_arg6) := by
  after_results_simp

end Cert.KernelIdeal.Layers

end
-- ==== Proof.Region2.lean ====
/-
  Pallas call 2 of the stack (hidden layer 2): what its output array holds after the run, as one function of the
  arrays the region finds.  The body's one store writes `hidden` of the five loaded blocks; block `t` of the
  aggregate, of the two factor columns and of the output is rows `5000 t … 5000 t + 4999`, while the weight matrix
  and the bias row are read whole at every point; a hidden layer is row-local, so what point `t` writes back is block
  `t` of `hidden` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the hidden layer of its five loaded blocks. -/
theorem pay2 (x0 : Vec Ideal S5000x128 .f32) (x1 : Vec Ideal S5000x1 .f32) (x3 : Vec Ideal S128x128 .f32)
    (x4 : Vec Ideal S1x128 .f32) (x2 : Vec Ideal S5000x1 .f32) :
    k2_pay1 (F := Ideal) x0 x1 x3 x4 x2 = hidden (M := 5000) (K := 128) (N := 128) x0 x1 x2 x3 x4 := by
  unfold k2_pay1
  exact vecHidden dot_S5000x128_S128x128_S5000x128_1_0_0_1_n_n rfl rfl rfl rfl rfl rfl x0 x1 x2 x3 x4 _ _ _ _ _ _ _ _

/-- The printed index maps over the grid: the row-blocked windows sit at block row `t`, column block 0; the weights
    and the bias are at block (0, 0) at every point. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the hidden layer of the whole arrays. -/
theorem flushed2 (c : Dev nD) (t : Fin cfg2.N) :
    (dat2 V c).flushed 5 t = ((cfg2.win 5).blk t).view.read (Elt Ideal)
      (hidden (M := 100000) (K := 128) (N := 128) (V c main_v60) (V c main_v16) (V c main_v15) (V c main_v65) (V c main_v63)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S5000x1) hz2,
    View.ld_unit_zero (S := S128x128) hz2, View.ld_unit_zero (S := S1x128) hz2]
  rw [pay2]
  obtain ⟨e00, e01, e10, e11, e20, e21, e30, e31, e40, e41, e50, e51⟩ := idx2 t
  funext j
  show hidden (M := 5000) (K := 128) (N := 128) (iblk2 V c 0 t) (iblk2 V c 1 t) (iblk2 V c 2 t) (iblk2 V c 3 t) (iblk2 V c 4 t)
      ((cfg2.win 5).xinj (grid2.coords t) j)
    = hidden (M := 100000) (K := 128) (N := 128) (V c main_v60) (V c main_v16) (V c main_v15) (V c main_v65) (V c main_v63)
      (((cfg2.win 5).blk t).view.emb j)
  have hj0 : (j 0).val < 5000 := (j 0).isLt
  have hj1 : (j 1).val < 128 := (j 1).isLt
  refine hidden_at (V c main_v60) (V c main_v16) (V c main_v15) (V c main_v65) (V c main_v63)
    (iblk2 V c 0 t) (iblk2 V c 1 t) (iblk2 V c 2 t) (iblk2 V c 3 t) (iblk2 V c 4 t) _ _ ?_ ?_ ?_ ?_ ?_
  · intro q
    show V c main_v60 (((cfg2.win 0).blk t).view.emb (ix2 (⟨(j 0).val, hj0⟩ : Fin 5000) q)) = V c main_v60 _
    refine congrArg (V c main_v60) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * q.val = q.val; omega
  · show V c main_v16 (((cfg2.win 1).blk t).view.emb (ix2 (⟨(j 0).val, hj0⟩ : Fin 5000) (0 : Fin 1))) = V c main_v16 _
    refine congrArg (V c main_v16) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 1 + 1 * 0 = 0; omega
  · show V c main_v15 (((cfg2.win 2).blk t).view.emb (ix2 (⟨(j 0).val, hj0⟩ : Fin 5000) (0 : Fin 1))) = V c main_v15 _
    refine congrArg (V c main_v15) (funext fun a => Fin.ext ?_)
    match a with
    | ⟨0, _⟩ => show win2_2.index t (0 : Fin 2) * 5000 + 1 * (j 0).val = win2_5.index t (0 : Fin 2) * 5000 + 1 * (j 0).val; omega
    | ⟨1, _⟩ => show win2_2.index t (1 : Fin 2) * 1 + 1 * 0 = 0; omega
  · intro q
    show V c main_v65 (((cfg2.win 3).blk t).view.emb (ix2 q (⟨(j 1).val, hj1⟩ : Fin 128))) = V c main_v65 _
    refine congrArg (V c main_v65) (funext fun a => Fin.ext ?_)
    match a with
    | ⟨0, _⟩ => show win2_3.index t (0 : Fin 2) * 128 + 1 * q.val = q.val; omega
    | ⟨1, _⟩ => show win2_3.index t (1 : Fin 2) * 128 + 1 * (j 1).val = win2_5.index t (1 : Fin 2) * 128 + 1 * (j 1).val; omega
  · show V c main_v63 (((cfg2.win 4).blk t).view.emb (ix2 (0 : Fin 1) (⟨(j 1).val, hj1⟩ : Fin 128))) = V c main_v63 _
    refine congrArg (V c main_v63) (funext fun a => Fin.ext ?_)
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega

/-- An index of the array is in point `t`'s block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v66).slice (win2_5.rect t)).set ↔ _
  rw [View.set_slice_whole, Rect.mem_set_unit]
  exact Iff.rfl

/-- Row `r` lies in the block of point `r / 5000`: the twenty blocks cover the array. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, by show _ < grid2.N; rw [hN]; omega⟩, rfl⟩
  obtain ⟨-, -, -, -, -, -, -, -, -, -, e50, e51⟩ := idx2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the region: the hidden layer of the arrays the region finds. -/
theorem final2 (c : Dev nD) :
    (dat2 V c).arrAt 5 cfg2.N
      = hidden (M := 100000) (K := 128) (N := 128) (V c main_v60) (V c main_v16) (V c main_v15) (V c main_v65) (V c main_v63) :=
  (dat2 V c).arrAt_eq_of_cover 5 _ (fun t _ => flushed2 V c t) cover2

/-- An input window's array ends as the region finds it. -/
theorem kept2 (c : Dev nD) (w : Fin cfg2.W) (hin : (cfg2.win w).isOut = false) :
    (dat2 V c).arrAt w cfg2.N = V c (Pipeline.arrRef spec2 w) :=
  ((dat2 V c).arrAt_in w hin cfg2.N).trans (A_eq2 V c w)

end Cert.KernelIdeal.Layers

end
-- ==== Proof.Host2.lean ====
/-
  The host operations between pallas_calls 1 and 2, read at the buffers the run needs, from ANY buffer contents
  `W`: the aggregate of the previous call's output, layer 2's weights and bias row; and the degree-factor columns and
  the argument buffers keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h2_agg : StableHlo.after (hostOps2 (F := F)) W (Proc.devRef .tc main_v60)
    = agg (W (Proc.devRef .tc main_v50)) (W (Proc.devRef .tc main_arg5)) (W (Proc.devRef .tc main_arg6)) := by
  after_results_simp
  rfl

theorem h2_w : StableHlo.after (hostOps2 (F := F)) W (Proc.devRef .tc main_v65) = wSlice2 (W (Proc.devRef .tc main_arg1)) := by
  after_results_simp
  rfl

theorem h2_b : StableHlo.after (hostOps2 (F := F)) W (Proc.devRef .tc main_v63) = bRow2 (W (Proc.devRef .tc main_arg2)) := by
  after_results_simp
  rfl

theorem h2_keep_v15 : StableHlo.after (hostOps2 (F := F)) W (Proc.devRef .tc main_v15) = W (Proc.devRef .tc main_v15) := by
  after_results_simp

theorem h2_keep_v16 : StableHlo.after (hostOps2 (F := F)) W (Proc.devRef .tc main_v16) = W (Proc.devRef .tc main_v16) := by
  after_results_simp

theorem h2_keep_arg1 : StableHlo.after (hostOps2 (F := F)) W (Proc.devRef .tc main_arg1) = W (Proc.devRef .tc main_arg1) := by
  after_results_simp

theorem h2_keep_arg2 : StableHlo.after (hostOps2 (F := F)) W (Proc.devRef .tc main_arg2) = W (Proc.devRef .tc main_arg2) := by
  after_results_simp

theorem h2_keep_arg3 : StableHlo.after (hostOps2 (F := F)) W (Proc.devRef .tc main_arg3) = W (Proc.devRef .tc main_arg3) := by
  after_results_simp

theorem h2_keep_arg4 : StableHlo.after (hostOps2 (F := F)) W (Proc.devRef .tc main_arg4) = W (Proc.devRef .tc main_arg4) := by
  after_results_simp

theorem h2_keep_arg5 : StableHlo.after (hostOps2 (F := F)) W (Proc.devRef .tc main_arg5) = W (Proc.devRef .tc main_arg5) := by
  after_results_simp

theorem h2_keep_arg6 : StableHlo.after (hostOps2 (F := F)) W (Proc.devRef .tc main_arg6) = W (Proc.devRef .tc main_arg6) := by
  after_results_simp

end Cert.KernelIdeal.Layers

end
-- ==== Proof.Region3.lean ====
/-
  Pallas call 3 of the stack (hidden layer 3): what its output array holds after the run, as one function of the
  arrays the region finds.  The body's one store writes `hidden` of the five loaded blocks; block `t` of the
  aggregate, of the two factor columns and of the output is rows `5000 t … 5000 t + 4999`, while the weight matrix
  and the bias row are read whole at every point; a hidden layer is row-local, so what point `t` writes back is block
  `t` of `hidden` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The body's stored value is the hidden layer of its five loaded blocks. -/
theorem pay3 (x0 : Vec Ideal S5000x128 .f32) (x1 : Vec Ideal S5000x1 .f32) (x3 : Vec Ideal S128x128 .f32)
    (x4 : Vec Ideal S1x128 .f32) (x2 : Vec Ideal S5000x1 .f32) :
    k3_pay1 (F := Ideal) x0 x1 x3 x4 x2 = hidden (M := 5000) (K := 128) (N := 128) x0 x1 x2 x3 x4 := by
  unfold k3_pay1
  exact vecHidden dot_S5000x128_S128x128_S5000x128_1_0_0_1_n_n rfl rfl rfl rfl rfl rfl x0 x1 x2 x3 x4 _ _ _ _ _ _ _ _

/-- The printed index maps over the grid: the row-blocked windows sit at block row `t`, column block 0; the weights
    and the bias are at block (0, 0) at every point. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the hidden layer of the whole arrays. -/
theorem flushed3 (c : Dev nD) (t : Fin cfg3.N) :
    (dat3 V c).flushed 5 t = ((cfg3.win 5).blk t).view.read (Elt Ideal)
      (hidden (M := 100000) (K := 128) (N := 128) (V c main_v76) (V c main_v16) (V c main_v15) (V c main_v81) (V c main_v79)) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S5000x1) hz3,
    View.ld_unit_zero (S := S128x128) hz3, View.ld_unit_zero (S := S1x128) hz3]
  rw [pay3]
  obtain ⟨e00, e01, e10, e11, e20, e21, e30, e31, e40, e41, e50, e51⟩ := idx3 t
  funext j
  show hidden (M := 5000) (K := 128) (N := 128) (iblk3 V c 0 t) (iblk3 V c 1 t) (iblk3 V c 2 t) (iblk3 V c 3 t) (iblk3 V c 4 t)
      ((cfg3.win 5).xinj (grid3.coords t) j)
    = hidden (M := 100000) (K := 128) (N := 128) (V c main_v76) (V c main_v16) (V c main_v15) (V c main_v81) (V c main_v79)
      (((cfg3.win 5).blk t).view.emb j)
  have hj0 : (j 0).val < 5000 := (j 0).isLt
  have hj1 : (j 1).val < 128 := (j 1).isLt
  refine hidden_at (V c main_v76) (V c main_v16) (V c main_v15) (V c main_v81) (V c main_v79)
    (iblk3 V c 0 t) (iblk3 V c 1 t) (iblk3 V c 2 t) (iblk3 V c 3 t) (iblk3 V c 4 t) _ _ ?_ ?_ ?_ ?_ ?_
  · intro q
    show V c main_v76 (((cfg3.win 0).blk t).view.emb (ix2 (⟨(j 0).val, hj0⟩ : Fin 5000) q)) = V c main_v76 _
    refine congrArg (V c main_v76) (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * q.val = q.val; omega
  · show V c main_v16 (((cfg3.win 1).blk t).view.emb (ix2 (⟨(j 0).val, hj0⟩ : Fin 5000) (0 : Fin 1))) = V c main_v16 _
    refine congrArg (V c main_v16) (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 1 + 1 * 0 = 0; omega
  · show V c main_v15 (((cfg3.win 2).blk t).view.emb (ix2 (⟨(j 0).val, hj0⟩ : Fin 5000) (0 : Fin 1))) = V c main_v15 _
    refine congrArg (V c main_v15) (funext fun a => Fin.ext ?_)
    match a with
    | ⟨0, _⟩ => show win3_2.index t (0 : Fin 2) * 5000 + 1 * (j 0).val = win3_5.index t (0 : Fin 2) * 5000 + 1 * (j 0).val; omega
    | ⟨1, _⟩ => show win3_2.index t (1 : Fin 2) * 1 + 1 * 0 = 0; omega
  · intro q
    show V c main_v81 (((cfg3.win 3).blk t).view.emb (ix2 q (⟨(j 1).val, hj1⟩ : Fin 128))) = V c main_v81 _
    refine congrArg (V c main_v81) (funext fun a => Fin.ext ?_)
    match a with
    | ⟨0, _⟩ => show win3_3.index t (0 : Fin 2) * 128 + 1 * q.val = q.val; omega
    | ⟨1, _⟩ => show win3_3.index t (1 : Fin 2) * 128 + 1 * (j 1).val = win3_5.index t (1 : Fin 2) * 128 + 1 * (j 1).val; omega
  · show V c main_v79 (((cfg3.win 4).blk t).view.emb (ix2 (0 : Fin 1) (⟨(j 1).val, hj1⟩ : Fin 128))) = V c main_v79 _
    refine congrArg (V c main_v79) (funext fun a => Fin.ext ?_)
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v82).slice (win3_5.rect t)).set ↔ _
  rw [View.set_slice_whole, Rect.mem_set_unit]
  exact Iff.rfl

/-- Row `r` lies in the block of point `r / 5000`: the twenty blocks cover the array. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 :=
    ⟨⟨(i 0).val / 5000, by show _ < grid3.N; rw [hN]; omega⟩, rfl⟩
  obtain ⟨-, -, -, -, -, -, -, -, -, -, e50, e51⟩ := idx3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE OUTPUT ARRAY after the region: the hidden layer of the arrays the region finds. -/
theorem final3 (c : Dev nD) :
    (dat3 V c).arrAt 5 cfg3.N
      = hidden (M := 100000) (K := 128) (N := 128) (V c main_v76) (V c main_v16) (V c main_v15) (V c main_v81) (V c main_v79) :=
  (dat3 V c).arrAt_eq_of_cover 5 _ (fun t _ => flushed3 V c t) cover3

/-- An input window's array ends as the region finds it. -/
theorem kept3 (c : Dev nD) (w : Fin cfg3.W) (hin : (cfg3.win w).isOut = false) :
    (dat3 V c).arrAt w cfg3.N = V c (Pipeline.arrRef spec3 w) :=
  ((dat3 V c).arrAt_in w hin cfg3.N).trans (A_eq3 V c w)

end Cert.KernelIdeal.Layers

end
-- ==== Proof.Host3.lean ====
/-
  The host operations between pallas_calls 2 and 3, read at the buffers the run needs, from ANY buffer contents
  `W`: the aggregate of the previous call's output, layer 3's weights and bias row; and the degree-factor columns and
  the argument buffers keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h3_agg : StableHlo.after (hostOps3 (F := F)) W (Proc.devRef .tc main_v76)
    = agg (W (Proc.devRef .tc main_v66)) (W (Proc.devRef .tc main_arg5)) (W (Proc.devRef .tc main_arg6)) := by
  after_results_simp
  rfl

theorem h3_w : StableHlo.after (hostOps3 (F := F)) W (Proc.devRef .tc main_v81) = wSlice3 (W (Proc.devRef .tc main_arg1)) := by
  after_results_simp
  rfl

theorem h3_b : StableHlo.after (hostOps3 (F := F)) W (Proc.devRef .tc main_v79) = bRow3 (W (Proc.devRef .tc main_arg2)) := by
  after_results_simp
  rfl

theorem h3_keep_v15 : StableHlo.after (hostOps3 (F := F)) W (Proc.devRef .tc main_v15) = W (Proc.devRef .tc main_v15) := by
  after_results_simp

theorem h3_keep_v16 : StableHlo.after (hostOps3 (F := F)) W (Proc.devRef .tc main_v16) = W (Proc.devRef .tc main_v16) := by
  after_results_simp

theorem h3_keep_arg1 : StableHlo.after (hostOps3 (F := F)) W (Proc.devRef .tc main_arg1) = W (Proc.devRef .tc main_arg1) := by
  after_results_simp

theorem h3_keep_arg2 : StableHlo.after (hostOps3 (F := F)) W (Proc.devRef .tc main_arg2) = W (Proc.devRef .tc main_arg2) := by
  after_results_simp

theorem h3_keep_arg3 : StableHlo.after (hostOps3 (F := F)) W (Proc.devRef .tc main_arg3) = W (Proc.devRef .tc main_arg3) := by
  after_results_simp

theorem h3_keep_arg4 : StableHlo.after (hostOps3 (F := F)) W (Proc.devRef .tc main_arg4) = W (Proc.devRef .tc main_arg4) := by
  after_results_simp

theorem h3_keep_arg5 : StableHlo.after (hostOps3 (F := F)) W (Proc.devRef .tc main_arg5) = W (Proc.devRef .tc main_arg5) := by
  after_results_simp

theorem h3_keep_arg6 : StableHlo.after (hostOps3 (F := F)) W (Proc.devRef .tc main_arg6) = W (Proc.devRef .tc main_arg6) := by
  after_results_simp

end Cert.KernelIdeal.Layers

end
-- ==== Proof.Region4.lean ====
/-
  Pallas call 4 of the stack (hidden layer 4): what its output array holds after the run, as one function of the
  arrays the region finds.  The body's one store writes `hidden` of the five loaded blocks; block `t` of the
  aggregate, of the two factor columns and of the output is rows `5000 t … 5000 t + 4999`, while the weight matrix
  and the bias row are read whole at every point; a hidden layer is row-local, so what point `t` writes back is block
  `t` of `hidden` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The body's stored value is the hidden layer of its five loaded blocks. -/
theorem pay4 (x0 : Vec Ideal S5000x128 .f32) (x1 : Vec Ideal S5000x1 .f32) (x3 : Vec Ideal S128x128 .f32)
    (x4 : Vec Ideal S1x128 .f32) (x2 : Vec Ideal S5000x1 .f32) :
    k4_pay1 (F := Ideal) x0 x1 x3 x4 x2 = hidden (M := 5000) (K := 128) (N := 128) x0 x1 x2 x3 x4 := by
  unfold k4_pay1
  exact vecHidden dot_S5000x128_S128x128_S5000x128_1_0_0_1_n_n rfl rfl rfl rfl rfl rfl x0 x1 x2 x3 x4 _ _ _ _ _ _ _ _

/-- The printed index maps over the grid: the row-blocked windows sit at block row `t`, column block 0; the weights
    and the bias are at block (0, 0) at every point. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point `t` writes back is block `t` of the hidden layer of the whole arrays. -/
theorem flushed4 (c : Dev nD) (t : Fin cfg4.N) :
    (dat4 V c).flushed 5 t = ((cfg4.win 5).blk t).view.read (Elt Ideal)
      (hidden (M := 100000) (K := 128) (N := 128) (V c main_v92) (V c main_v16) (V c main_v15) (V c main_v97) (V c main_v95)) := by
  show (cfg4.win 5).cut (grid4.coords t) ((dat4 V c).after 5 t) = _
  rw [after4_5]
  unfold out4_5
  rw [View.canon_unit_zero hz4]
  simp only [View.ld_unit_zero (S := S5000x128) hz4, View.ld_unit_zero (S := S5000x1) hz4,
    View.ld_unit_zero (S := S128x128) hz4, View.ld_unit_zero (S := S1x128) hz4]
  rw [pay4]
  obtain ⟨e00, e01, e10, e11, e20, e21, e30, e31, e40, e41, e50, e51⟩ := idx4 t
  funext j
  show hidden (M := 5000) (K := 128) (N := 128) (iblk4 V c 0 t) (iblk4 V c 1 t) (iblk4 V c 2 t) (iblk4 V c 3 t) (iblk4 V c 4 t)
      ((cfg4.win 5).xinj (grid4.coords t) j)
    = hidden (M := 100000) (K := 128) (N := 128) (V c main_v92) (V c main_v16) (V c main_v15) (V c main_v97) (V c main_v95)
      (((cfg4.win 5).blk t).view.emb j)
  have hj0 : (j 0).val < 5000 := (j 0).isLt
  have hj1 : (j 1).val < 128 := (j 1).isLt
  refine hidden_at (V c main_v92) (V c main_v16) (V c main_v15) (V c main_v97) (V c main_v95)
    (iblk4 V c 0 t) (iblk4 V c 1 t) (iblk4 V c 2 t) (iblk4 V c 3 t) (iblk4 V c 4 t) _ _ ?_ ?_ ?_ ?_ ?_
  · intro q
    show V c main_v92 (((cfg4.win 0).blk t).view.emb (ix2 (⟨(j 0).val, hj0⟩ : Fin 5000) q)) = V c main_v92 _
    refine congrArg (V c main_v92) (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 128 + 1 * q.val = q.val; omega
  · show V c main_v16 (((cfg4.win 1).blk t).view.emb (ix2 (⟨(j 0).val, hj0⟩ : Fin 5000) (0 : Fin 1))) = V c main_v16 _
    refine congrArg (V c main_v16) (funext fun a => Fin.ext ?_)
    match a with
    | ⟨0, _⟩ => show win4_1.index t (0 : Fin 2) * 5000 + 1 * (j 0).val = win4_5.index t (0 : Fin 2) * 5000 + 1 * (j 0).val; omega
    | ⟨1, _⟩ => show win4_1.index t (1 : Fin 2) * 1 + 1 * 0 = 0; omega
  · show V c main_v15 (((cfg4.win 2).blk t).view.emb (ix2 (⟨(j 0).val, hj0⟩ : Fin 5000) (0 : Fin 1))) = V c main_v15 _
    refine congrArg (V c main_v15) (funext fun a => Fin.ext ?_)
    match a with
    | ⟨0, _⟩ => show win4_2.index t (0 : Fin 2) * 5000 + 1 * (j 0).val = win4_5.index t (0 : Fin 2) * 5000 + 1 * (j 0).val; omega
    | ⟨1, _⟩ => show win4_2.index t (1 : Fin 2) * 1 + 1 * 0 = 0; omega
  · intro q
    show V c main_v97 (((cfg4.win 3).blk t).view.emb (ix2 q (⟨(j 1).val, hj1⟩ : Fin 128))) = V c main_v97 _
    refine congrArg (V c main_v97) (funext fun a => Fin.ext ?_)
    match a with
    | ⟨0, _⟩ => show win4_3.index t (0 : Fin 2) * 128 + 1 * q.val = q.val; omega
    | ⟨1, _⟩ => show win4_3.index t (1 : Fin 2) * 128 + 1 * (j 1).val = win4_5.index t (1 : Fin 2) * 128 + 1 * (j 1).val; omega
  · show V c main_v95 (((cfg4.win 4).blk t).view.emb (ix2 (0 : Fin 1) (⟨(j 1).val, hj1⟩ : Fin 128))) = V c main_v95 _
    refine congrArg (V c main_v95) (funext fun a => Fin.ext ?_)
    match a with
    | ⟨0, _⟩ => show win4_4.index t (0 : Fin 2) * 1 + 1 * 0 = 0; omega
    | ⟨1, _⟩ => show win4_4.index t (1 : Fin 2) * 128 + 1 * (j 1).val = win4_5.index t (1 : Fin 2) * 128 + 1 * (j 1).val; omega

/-- An index of the array is in point `t`'s block iff each coordinate is in the block's range on its axis. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v98).slice (win4_5.rect t)).set ↔ _
  rw [View.set_slice_whole, Rect.mem_set_unit]
  exact Iff.rfl

/-- Row `r` lies in the block of point `r / 5000`: the twenty blocks cover the array. -/
theorem cover4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 :=
    ⟨⟨(i 0).val / 5000, by show _ < grid4.N; rw [hN]; omega⟩, rfl⟩
  obtain ⟨-, -, -, -, -, -, -, -, -, -, e50, e51⟩ := idx4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE OUTPUT ARRAY after the region: the hidden layer of the arrays the region finds. -/
theorem final4 (c : Dev nD) :
    (dat4 V c).arrAt 5 cfg4.N
      = hidden (M := 100000) (K := 128) (N := 128) (V c main_v92) (V c main_v16) (V c main_v15) (V c main_v97) (V c main_v95) :=
  (dat4 V c).arrAt_eq_of_cover 5 _ (fun t _ => flushed4 V c t) cover4

/-- An input window's array ends as the region finds it. -/
theorem kept4 (c : Dev nD) (w : Fin cfg4.W) (hin : (cfg4.win w).isOut = false) :
    (dat4 V c).arrAt w cfg4.N = V c (Pipeline.arrRef spec4 w) :=
  ((dat4 V c).arrAt_in w hin cfg4.N).trans (A_eq4 V c w)

end Cert.KernelIdeal.Layers

end
-- ==== Proof.Host4.lean ====
/-
  The host operations between pallas_calls 3 and 4, read at the buffers the run needs, from ANY buffer contents
  `W`: the aggregate of the previous call's output, layer 4's weights and bias row; and the degree-factor columns and
  the argument buffers keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h4_agg : StableHlo.after (hostOps4 (F := F)) W (Proc.devRef .tc main_v92)
    = agg (W (Proc.devRef .tc main_v82)) (W (Proc.devRef .tc main_arg5)) (W (Proc.devRef .tc main_arg6)) := by
  after_results_simp
  rfl

theorem h4_w : StableHlo.after (hostOps4 (F := F)) W (Proc.devRef .tc main_v97) = wSlice4 (W (Proc.devRef .tc main_arg1)) := by
  after_results_simp
  rfl

theorem h4_b : StableHlo.after (hostOps4 (F := F)) W (Proc.devRef .tc main_v95) = bRow4 (W (Proc.devRef .tc main_arg2)) := by
  after_results_simp
  rfl

theorem h4_keep_v15 : StableHlo.after (hostOps4 (F := F)) W (Proc.devRef .tc main_v15) = W (Proc.devRef .tc main_v15) := by
  after_results_simp

theorem h4_keep_v16 : StableHlo.after (hostOps4 (F := F)) W (Proc.devRef .tc main_v16) = W (Proc.devRef .tc main_v16) := by
  after_results_simp

theorem h4_keep_arg1 : StableHlo.after (hostOps4 (F := F)) W (Proc.devRef .tc main_arg1) = W (Proc.devRef .tc main_arg1) := by
  after_results_simp

theorem h4_keep_arg2 : StableHlo.after (hostOps4 (F := F)) W (Proc.devRef .tc main_arg2) = W (Proc.devRef .tc main_arg2) := by
  after_results_simp

theorem h4_keep_arg3 : StableHlo.after (hostOps4 (F := F)) W (Proc.devRef .tc main_arg3) = W (Proc.devRef .tc main_arg3) := by
  after_results_simp

theorem h4_keep_arg4 : StableHlo.after (hostOps4 (F := F)) W (Proc.devRef .tc main_arg4) = W (Proc.devRef .tc main_arg4) := by
  after_results_simp

theorem h4_keep_arg5 : StableHlo.after (hostOps4 (F := F)) W (Proc.devRef .tc main_arg5) = W (Proc.devRef .tc main_arg5) := by
  after_results_simp

theorem h4_keep_arg6 : StableHlo.after (hostOps4 (F := F)) W (Proc.devRef .tc main_arg6) = W (Proc.devRef .tc main_arg6) := by
  after_results_simp

end Cert.KernelIdeal.Layers

end
-- ==== Proof.Region5.lean ====
/-
  Pallas call 5 of the stack (hidden layer 5): what its output array holds after the run, as one function of the
  arrays the region finds.  The body's one store writes `hidden` of the five loaded blocks; block `t` of the
  aggregate, of the two factor columns and of the output is rows `5000 t … 5000 t + 4999`, while the weight matrix
  and the bias row are read whole at every point; a hidden layer is row-local, so what point `t` writes back is block
  `t` of `hidden` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The body's stored value is the hidden layer of its five loaded blocks. -/
theorem pay5 (x0 : Vec Ideal S5000x128 .f32) (x1 : Vec Ideal S5000x1 .f32) (x3 : Vec Ideal S128x128 .f32)
    (x4 : Vec Ideal S1x128 .f32) (x2 : Vec Ideal S5000x1 .f32) :
    k5_pay1 (F := Ideal) x0 x1 x3 x4 x2 = hidden (M := 5000) (K := 128) (N := 128) x0 x1 x2 x3 x4 := by
  unfold k5_pay1
  exact vecHidden dot_S5000x128_S128x128_S5000x128_1_0_0_1_n_n rfl rfl rfl rfl rfl rfl x0 x1 x2 x3 x4 _ _ _ _ _ _ _ _

/-- The printed index maps over the grid: the row-blocked windows sit at block row `t`, column block 0; the weights
    and the bias are at block (0, 0) at every point. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the hidden layer of the whole arrays. -/
theorem flushed5 (c : Dev nD) (t : Fin cfg5.N) :
    (dat5 V c).flushed 5 t = ((cfg5.win 5).blk t).view.read (Elt Ideal)
      (hidden (M := 100000) (K := 128) (N := 128) (V c main_v108) (V c main_v16) (V c main_v15) (V c main_v113) (V c main_v111)) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S5000x1) hz5,
    View.ld_unit_zero (S := S128x128) hz5, View.ld_unit_zero (S := S1x128) hz5]
  rw [pay5]
  obtain ⟨e00, e01, e10, e11, e20, e21, e30, e31, e40, e41, e50, e51⟩ := idx5 t
  funext j
  show hidden (M := 5000) (K := 128) (N := 128) (iblk5 V c 0 t) (iblk5 V c 1 t) (iblk5 V c 2 t) (iblk5 V c 3 t) (iblk5 V c 4 t)
      ((cfg5.win 5).xinj (grid5.coords t) j)
    = hidden (M := 100000) (K := 128) (N := 128) (V c main_v108) (V c main_v16) (V c main_v15) (V c main_v113) (V c main_v111)
      (((cfg5.win 5).blk t).view.emb j)
  have hj0 : (j 0).val < 5000 := (j 0).isLt
  have hj1 : (j 1).val < 128 := (j 1).isLt
  refine hidden_at (V c main_v108) (V c main_v16) (V c main_v15) (V c main_v113) (V c main_v111)
    (iblk5 V c 0 t) (iblk5 V c 1 t) (iblk5 V c 2 t) (iblk5 V c 3 t) (iblk5 V c 4 t) _ _ ?_ ?_ ?_ ?_ ?_
  · intro q
    show V c main_v108 (((cfg5.win 0).blk t).view.emb (ix2 (⟨(j 0).val, hj0⟩ : Fin 5000) q)) = V c main_v108 _
    refine congrArg (V c main_v108) (funext fun a => Fin.ext ?_)
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * q.val = q.val; omega
  · show V c main_v16 (((cfg5.win 1).blk t).view.emb (ix2 (⟨(j 0).val, hj0⟩ : Fin 5000) (0 : Fin 1))) = V c main_v16 _
    refine congrArg (V c main_v16) (funext fun a => Fin.ext ?_)
    match a with
    | ⟨0, _⟩ => show win5_1.index t (0 : Fin 2) * 5000 + 1 * (j 0).val = win5_5.index t (0 : Fin 2) * 5000 + 1 * (j 0).val; omega
    | ⟨1, _⟩ => show win5_1.index t (1 : Fin 2) * 1 + 1 * 0 = 0; omega
  · show V c main_v15 (((cfg5.win 2).blk t).view.emb (ix2 (⟨(j 0).val, hj0⟩ : Fin 5000) (0 : Fin 1))) = V c main_v15 _
    refine congrArg (V c main_v15) (funext fun a => Fin.ext ?_)
    match a with
    | ⟨0, _⟩ => show win5_2.index t (0 : Fin 2) * 5000 + 1 * (j 0).val = win5_5.index t (0 : Fin 2) * 5000 + 1 * (j 0).val; omega
    | ⟨1, _⟩ => show win5_2.index t (1 : Fin 2) * 1 + 1 * 0 = 0; omega
  · intro q
    show V c main_v113 (((cfg5.win 3).blk t).view.emb (ix2 q (⟨(j 1).val, hj1⟩ : Fin 128))) = V c main_v113 _
    refine congrArg (V c main_v113) (funext fun a => Fin.ext ?_)
    match a with
    | ⟨0, _⟩ => show win5_3.index t (0 : Fin 2) * 128 + 1 * q.val = q.val; omega
    | ⟨1, _⟩ => show win5_3.index t (1 : Fin 2) * 128 + 1 * (j 1).val = win5_5.index t (1 : Fin 2) * 128 + 1 * (j 1).val; omega
  · show V c main_v111 (((cfg5.win 4).blk t).view.emb (ix2 (0 : Fin 1) (⟨(j 1).val, hj1⟩ : Fin 128))) = V c main_v111 _
    refine congrArg (V c main_v111) (funext fun a => Fin.ext ?_)
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega

/-- An index of the array is in point `t`'s block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v114).slice (win5_5.rect t)).set ↔ _
  rw [View.set_slice_whole, Rect.mem_set_unit]
  exact Iff.rfl

/-- Row `r` lies in the block of point `r / 5000`: the twenty blocks cover the array. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : grid5.N = 20 := N_5
  obtain ⟨t, ht⟩ : ∃ t : Fin cfg5.N, t.val = (i 0).val / 5000 :=
    ⟨⟨(i 0).val / 5000, by show _ < grid5.N; rw [hN]; omega⟩, rfl⟩
  obtain ⟨-, -, -, -, -, -, -, -, -, -, e50, e51⟩ := idx5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- THE OUTPUT ARRAY after the region: the hidden layer of the arrays the region finds. -/
theorem final5 (c : Dev nD) :
    (dat5 V c).arrAt 5 cfg5.N
      = hidden (M := 100000) (K := 128) (N := 128) (V c main_v108) (V c main_v16) (V c main_v15) (V c main_v113) (V c main_v111) :=
  (dat5 V c).arrAt_eq_of_cover 5 _ (fun t _ => flushed5 V c t) cover5

/-- An input window's array ends as the region finds it. -/
theorem kept5 (c : Dev nD) (w : Fin cfg5.W) (hin : (cfg5.win w).isOut = false) :
    (dat5 V c).arrAt w cfg5.N = V c (Pipeline.arrRef spec5 w) :=
  ((dat5 V c).arrAt_in w hin cfg5.N).trans (A_eq5 V c w)

end Cert.KernelIdeal.Layers

end
-- ==== Proof.Host5.lean ====
/-
  The host operations between pallas_calls 4 and 5, read at the buffers the run needs, from ANY buffer contents
  `W`: the aggregate of the previous call's output, layer 5's weights and bias row; and the degree-factor columns and
  the argument buffers keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h5_agg : StableHlo.after (hostOps5 (F := F)) W (Proc.devRef .tc main_v108)
    = agg (W (Proc.devRef .tc main_v98)) (W (Proc.devRef .tc main_arg5)) (W (Proc.devRef .tc main_arg6)) := by
  after_results_simp
  rfl

theorem h5_w : StableHlo.after (hostOps5 (F := F)) W (Proc.devRef .tc main_v113) = wSlice5 (W (Proc.devRef .tc main_arg1)) := by
  after_results_simp
  rfl

theorem h5_b : StableHlo.after (hostOps5 (F := F)) W (Proc.devRef .tc main_v111) = bRow5 (W (Proc.devRef .tc main_arg2)) := by
  after_results_simp
  rfl

theorem h5_keep_v15 : StableHlo.after (hostOps5 (F := F)) W (Proc.devRef .tc main_v15) = W (Proc.devRef .tc main_v15) := by
  after_results_simp

theorem h5_keep_v16 : StableHlo.after (hostOps5 (F := F)) W (Proc.devRef .tc main_v16) = W (Proc.devRef .tc main_v16) := by
  after_results_simp

theorem h5_keep_arg1 : StableHlo.after (hostOps5 (F := F)) W (Proc.devRef .tc main_arg1) = W (Proc.devRef .tc main_arg1) := by
  after_results_simp

theorem h5_keep_arg2 : StableHlo.after (hostOps5 (F := F)) W (Proc.devRef .tc main_arg2) = W (Proc.devRef .tc main_arg2) := by
  after_results_simp

theorem h5_keep_arg3 : StableHlo.after (hostOps5 (F := F)) W (Proc.devRef .tc main_arg3) = W (Proc.devRef .tc main_arg3) := by
  after_results_simp

theorem h5_keep_arg4 : StableHlo.after (hostOps5 (F := F)) W (Proc.devRef .tc main_arg4) = W (Proc.devRef .tc main_arg4) := by
  after_results_simp

theorem h5_keep_arg5 : StableHlo.after (hostOps5 (F := F)) W (Proc.devRef .tc main_arg5) = W (Proc.devRef .tc main_arg5) := by
  after_results_simp

theorem h5_keep_arg6 : StableHlo.after (hostOps5 (F := F)) W (Proc.devRef .tc main_arg6) = W (Proc.devRef .tc main_arg6) := by
  after_results_simp

end Cert.KernelIdeal.Layers

end
-- ==== Proof.Region6.lean ====
/-
  Pallas call 6 of the stack (hidden layer 6): what its output array holds after the run, as one function of the
  arrays the region finds.  The body's one store writes `hidden` of the five loaded blocks; block `t` of the
  aggregate, of the two factor columns and of the output is rows `5000 t … 5000 t + 4999`, while the weight matrix
  and the bias row are read whole at every point; a hidden layer is row-local, so what point `t` writes back is block
  `t` of `hidden` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The body's stored value is the hidden layer of its five loaded blocks. -/
theorem pay6 (x0 : Vec Ideal S5000x128 .f32) (x1 : Vec Ideal S5000x1 .f32) (x3 : Vec Ideal S128x128 .f32)
    (x4 : Vec Ideal S1x128 .f32) (x2 : Vec Ideal S5000x1 .f32) :
    k6_pay1 (F := Ideal) x0 x1 x3 x4 x2 = hidden (M := 5000) (K := 128) (N := 128) x0 x1 x2 x3 x4 := by
  unfold k6_pay1
  exact vecHidden dot_S5000x128_S128x128_S5000x128_1_0_0_1_n_n rfl rfl rfl rfl rfl rfl x0 x1 x2 x3 x4 _ _ _ _ _ _ _ _

/-- The printed index maps over the grid: the row-blocked windows sit at block row `t`, column block 0; the weights
    and the bias are at block (0, 0) at every point. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- What point `t` writes back is block `t` of the hidden layer of the whole arrays. -/
theorem flushed6 (c : Dev nD) (t : Fin cfg6.N) :
    (dat6 V c).flushed 5 t = ((cfg6.win 5).blk t).view.read (Elt Ideal)
      (hidden (M := 100000) (K := 128) (N := 128) (V c main_v124) (V c main_v16) (V c main_v15) (V c main_v129) (V c main_v127)) := by
  show (cfg6.win 5).cut (grid6.coords t) ((dat6 V c).after 5 t) = _
  rw [after6_5]
  unfold out6_5
  rw [View.canon_unit_zero hz6]
  simp only [View.ld_unit_zero (S := S5000x128) hz6, View.ld_unit_zero (S := S5000x1) hz6,
    View.ld_unit_zero (S := S128x128) hz6, View.ld_unit_zero (S := S1x128) hz6]
  rw [pay6]
  obtain ⟨e00, e01, e10, e11, e20, e21, e30, e31, e40, e41, e50, e51⟩ := idx6 t
  funext j
  show hidden (M := 5000) (K := 128) (N := 128) (iblk6 V c 0 t) (iblk6 V c 1 t) (iblk6 V c 2 t) (iblk6 V c 3 t) (iblk6 V c 4 t)
      ((cfg6.win 5).xinj (grid6.coords t) j)
    = hidden (M := 100000) (K := 128) (N := 128) (V c main_v124) (V c main_v16) (V c main_v15) (V c main_v129) (V c main_v127)
      (((cfg6.win 5).blk t).view.emb j)
  have hj0 : (j 0).val < 5000 := (j 0).isLt
  have hj1 : (j 1).val < 128 := (j 1).isLt
  refine hidden_at (V c main_v124) (V c main_v16) (V c main_v15) (V c main_v129) (V c main_v127)
    (iblk6 V c 0 t) (iblk6 V c 1 t) (iblk6 V c 2 t) (iblk6 V c 3 t) (iblk6 V c 4 t) _ _ ?_ ?_ ?_ ?_ ?_
  · intro q
    show V c main_v124 (((cfg6.win 0).blk t).view.emb (ix2 (⟨(j 0).val, hj0⟩ : Fin 5000) q)) = V c main_v124 _
    refine congrArg (V c main_v124) (funext fun a => Fin.ext ?_)
    match a with
    | ⟨0, _⟩ => show win6_0.index t (0 : Fin 2) * 5000 + 1 * (j 0).val = win6_5.index t (0 : Fin 2) * 5000 + 1 * (j 0).val; omega
    | ⟨1, _⟩ => show win6_0.index t (1 : Fin 2) * 128 + 1 * q.val = q.val; omega
  · show V c main_v16 (((cfg6.win 1).blk t).view.emb (ix2 (⟨(j 0).val, hj0⟩ : Fin 5000) (0 : Fin 1))) = V c main_v16 _
    refine congrArg (V c main_v16) (funext fun a => Fin.ext ?_)
    match a with
    | ⟨0, _⟩ => show win6_1.index t (0 : Fin 2) * 5000 + 1 * (j 0).val = win6_5.index t (0 : Fin 2) * 5000 + 1 * (j 0).val; omega
    | ⟨1, _⟩ => show win6_1.index t (1 : Fin 2) * 1 + 1 * 0 = 0; omega
  · show V c main_v15 (((cfg6.win 2).blk t).view.emb (ix2 (⟨(j 0).val, hj0⟩ : Fin 5000) (0 : Fin 1))) = V c main_v15 _
    refine congrArg (V c main_v15) (funext fun a => Fin.ext ?_)
    match a with
    | ⟨0, _⟩ => show win6_2.index t (0 : Fin 2) * 5000 + 1 * (j 0).val = win6_5.index t (0 : Fin 2) * 5000 + 1 * (j 0).val; omega
    | ⟨1, _⟩ => show win6_2.index t (1 : Fin 2) * 1 + 1 * 0 = 0; omega
  · intro q
    show V c main_v129 (((cfg6.win 3).blk t).view.emb (ix2 q (⟨(j 1).val, hj1⟩ : Fin 128))) = V c main_v129 _
    refine congrArg (V c main_v129) (funext fun a => Fin.ext ?_)
    match a with
    | ⟨0, _⟩ => show win6_3.index t (0 : Fin 2) * 128 + 1 * q.val = q.val; omega
    | ⟨1, _⟩ => show win6_3.index t (1 : Fin 2) * 128 + 1 * (j 1).val = win6_5.index t (1 : Fin 2) * 128 + 1 * (j 1).val; omega
  · show V c main_v127 (((cfg6.win 4).blk t).view.emb (ix2 (0 : Fin 1) (⟨(j 1).val, hj1⟩ : Fin 128))) = V c main_v127 _
    refine congrArg (V c main_v127) (funext fun a => Fin.ext ?_)
    match a with
    | ⟨0, _⟩ => show win6_4.index t (0 : Fin 2) * 1 + 1 * 0 = 0; omega
    | ⟨1, _⟩ => show win6_4.index t (1 : Fin 2) * 128 + 1 * (j 1).val = win6_5.index t (1 : Fin 2) * 128 + 1 * (j 1).val; omega

/-- An index of the array is in point `t`'s block iff each coordinate is in the block's range on its axis. -/
theorem mem_blk6 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v130).slice (win6_5.rect t)).set ↔ _
  rw [View.set_slice_whole, Rect.mem_set_unit]
  exact Iff.rfl

/-- Row `r` lies in the block of point `r / 5000`: the twenty blocks cover the array. -/
theorem cover6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : grid6.N = 20 := N_6
  obtain ⟨t, ht⟩ : ∃ t : Fin cfg6.N, t.val = (i 0).val / 5000 :=
    ⟨⟨(i 0).val / 5000, by show _ < grid6.N; rw [hN]; omega⟩, rfl⟩
  obtain ⟨-, -, -, -, -, -, -, -, -, -, e50, e51⟩ := idx6 t
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- THE OUTPUT ARRAY after the region: the hidden layer of the arrays the region finds. -/
theorem final6 (c : Dev nD) :
    (dat6 V c).arrAt 5 cfg6.N
      = hidden (M := 100000) (K := 128) (N := 128) (V c main_v124) (V c main_v16) (V c main_v15) (V c main_v129) (V c main_v127) :=
  (dat6 V c).arrAt_eq_of_cover 5 _ (fun t _ => flushed6 V c t) cover6

/-- An input window's array ends as the region finds it. -/
theorem kept6 (c : Dev nD) (w : Fin cfg6.W) (hin : (cfg6.win w).isOut = false) :
    (dat6 V c).arrAt w cfg6.N = V c (Pipeline.arrRef spec6 w) :=
  ((dat6 V c).arrAt_in w hin cfg6.N).trans (A_eq6 V c w)

end Cert.KernelIdeal.Layers

end
-- ==== Proof.Host6.lean ====
/-
  The host operations between pallas_calls 5 and 6, read at the buffers the run needs, from ANY buffer contents
  `W`: the aggregate of the previous call's output, layer 6's weights and bias row; and the degree-factor columns and
  the argument buffers keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h6_agg : StableHlo.after (hostOps6 (F := F)) W (Proc.devRef .tc main_v124)
    = agg (W (Proc.devRef .tc main_v114)) (W (Proc.devRef .tc main_arg5)) (W (Proc.devRef .tc main_arg6)) := by
  after_results_simp
  rfl

theorem h6_w : StableHlo.after (hostOps6 (F := F)) W (Proc.devRef .tc main_v129) = wSlice6 (W (Proc.devRef .tc main_arg1)) := by
  after_results_simp
  rfl

theorem h6_b : StableHlo.after (hostOps6 (F := F)) W (Proc.devRef .tc main_v127) = bRow6 (W (Proc.devRef .tc main_arg2)) := by
  after_results_simp
  rfl

theorem h6_keep_v15 : StableHlo.after (hostOps6 (F := F)) W (Proc.devRef .tc main_v15) = W (Proc.devRef .tc main_v15) := by
  after_results_simp

theorem h6_keep_v16 : StableHlo.after (hostOps6 (F := F)) W (Proc.devRef .tc main_v16) = W (Proc.devRef .tc main_v16) := by
  after_results_simp

theorem h6_keep_arg1 : StableHlo.after (hostOps6 (F := F)) W (Proc.devRef .tc main_arg1) = W (Proc.devRef .tc main_arg1) := by
  after_results_simp

theorem h6_keep_arg2 : StableHlo.after (hostOps6 (F := F)) W (Proc.devRef .tc main_arg2) = W (Proc.devRef .tc main_arg2) := by
  after_results_simp

theorem h6_keep_arg3 : StableHlo.after (hostOps6 (F := F)) W (Proc.devRef .tc main_arg3) = W (Proc.devRef .tc main_arg3) := by
  after_results_simp

theorem h6_keep_arg4 : StableHlo.after (hostOps6 (F := F)) W (Proc.devRef .tc main_arg4) = W (Proc.devRef .tc main_arg4) := by
  after_results_simp

theorem h6_keep_arg5 : StableHlo.after (hostOps6 (F := F)) W (Proc.devRef .tc main_arg5) = W (Proc.devRef .tc main_arg5) := by
  after_results_simp

theorem h6_keep_arg6 : StableHlo.after (hostOps6 (F := F)) W (Proc.devRef .tc main_arg6) = W (Proc.devRef .tc main_arg6) := by
  after_results_simp

end Cert.KernelIdeal.Layers

end
-- ==== Proof.Region7.lean ====
/-
  Pallas call 7 of the stack (the last layer): what its output array holds after the run, as one function of the
  arrays the region finds.  The body's one store writes `head` of the four loaded blocks; block `t` of the aggregate,
  of the in-degree factor column and of the output is rows `5000 t … 5000 t + 4999`, while the weight matrix and the
  bias row are read whole at every point; the last layer is row-local, so what point `t` writes back is block `t` of
  `head` of the whole arrays; the twenty blocks cover the array (row `r` lies in block `r / 5000`).
-/
import proofs.«127991_j20306605375975_1_alg».proof.Proof.Gen.KernelIdeal.Frame
import proofs.«127991_j20306605375975_1_alg».proof.Proof.LibGcnDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Cert.Dense Cert.GcnDense
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The body's stored value is the last layer of its four loaded blocks. -/
theorem pay7 (x0 : Vec Ideal S5000x128 .f32) (x1 : Vec Ideal S5000x1 .f32) (x3 : Vec Ideal S128x64 .f32)
    (x4 : Vec Ideal S1x64 .f32) :
    k7_pay1 (F := Ideal) x0 x1 x3 x4 = head (M := 5000) (K := 128) (N := 64) x0 x1 x3 x4 := by
  unfold k7_pay1
  exact vecHead dot_S5000x128_S128x64_S5000x64_1_0_0_1_n_n rfl rfl rfl rfl rfl rfl x0 x1 x3 x4 _ _ _ _ _ _

/-- The printed index maps over the grid: the row-blocked windows sit at block row `t`, column block 0; the weights
    and the bias are at block (0, 0) at every point. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point `t` writes back is block `t` of the last layer of the whole arrays. -/
theorem flushed7 (c : Dev nD) (t : Fin cfg7.N) :
    (dat7 V c).flushed 4 t = ((cfg7.win 4).blk t).view.read (Elt Ideal)
      (head (M := 100000) (K := 128) (N := 64) (V c main_v140) (V c main_v16) (V c main_arg3) (V c main_v141)) := by
  show (cfg7.win 4).cut (grid7.coords t) ((dat7 V c).after 4 t) = _
  rw [after7_4]
  unfold out7_4
  rw [View.canon_unit_zero hz7]
  simp only [View.ld_unit_zero (S := S5000x128) hz7, View.ld_unit_zero (S := S5000x1) hz7,
    View.ld_unit_zero (S := S128x64) hz7, View.ld_unit_zero (S := S1x64) hz7]
  rw [pay7]
  obtain ⟨e00, e01, e10, e11, e20, e21, e30, e31, e40, e41⟩ := idx7 t
  funext j
  show head (M := 5000) (K := 128) (N := 64) (iblk7 V c 0 t) (iblk7 V c 1 t) (iblk7 V c 2 t) (iblk7 V c 3 t)
      ((cfg7.win 4).xinj (grid7.coords t) j)
    = head (M := 100000) (K := 128) (N := 64) (V c main_v140) (V c main_v16) (V c main_arg3) (V c main_v141)
      (((cfg7.win 4).blk t).view.emb j)
  have hj0 : (j 0).val < 5000 := (j 0).isLt
  have hj1 : (j 1).val < 64 := (j 1).isLt
  refine head_at (V c main_v140) (V c main_v16) (V c main_arg3) (V c main_v141)
    (iblk7 V c 0 t) (iblk7 V c 1 t) (iblk7 V c 2 t) (iblk7 V c 3 t) _ _ ?_ ?_ ?_ ?_
  · intro q
    show V c main_v140 (((cfg7.win 0).blk t).view.emb (ix2 (⟨(j 0).val, hj0⟩ : Fin 5000) q)) = V c main_v140 _
    refine congrArg (V c main_v140) (funext fun a => Fin.ext ?_)
    match a with
    | ⟨0, _⟩ => show win7_0.index t (0 : Fin 2) * 5000 + 1 * (j 0).val = win7_4.index t (0 : Fin 2) * 5000 + 1 * (j 0).val; omega
    | ⟨1, _⟩ => show win7_0.index t (1 : Fin 2) * 128 + 1 * q.val = q.val; omega
  · show V c main_v16 (((cfg7.win 1).blk t).view.emb (ix2 (⟨(j 0).val, hj0⟩ : Fin 5000) (0 : Fin 1))) = V c main_v16 _
    refine congrArg (V c main_v16) (funext fun a => Fin.ext ?_)
    match a with
    | ⟨0, _⟩ => show win7_1.index t (0 : Fin 2) * 5000 + 1 * (j 0).val = win7_4.index t (0 : Fin 2) * 5000 + 1 * (j 0).val; omega
    | ⟨1, _⟩ => show win7_1.index t (1 : Fin 2) * 1 + 1 * 0 = 0; omega
  · intro q
    show V c main_arg3 (((cfg7.win 2).blk t).view.emb (ix2 q (⟨(j 1).val, hj1⟩ : Fin 64))) = V c main_arg3 _
    refine congrArg (V c main_arg3) (funext fun a => Fin.ext ?_)
    match a with
    | ⟨0, _⟩ => show win7_2.index t (0 : Fin 2) * 128 + 1 * q.val = q.val; omega
    | ⟨1, _⟩ => show win7_2.index t (1 : Fin 2) * 64 + 1 * (j 1).val = win7_4.index t (1 : Fin 2) * 64 + 1 * (j 1).val; omega
  · show V c main_v141 (((cfg7.win 3).blk t).view.emb (ix2 (0 : Fin 1) (⟨(j 1).val, hj1⟩ : Fin 64))) = V c main_v141 _
    refine congrArg (V c main_v141) (funext fun a => Fin.ext ?_)
    match a with
    | ⟨0, _⟩ => show win7_3.index t (0 : Fin 2) * 1 + 1 * 0 = 0; omega
    | ⟨1, _⟩ => show win7_3.index t (1 : Fin 2) * 64 + 1 * (j 1).val = win7_4.index t (1 : Fin 2) * 64 + 1 * (j 1).val; omega

/-- An index of the array is in point `t`'s block iff each coordinate is in the block's range on its axis. -/
theorem mem_blk7 (t : Fin cfg7.N) (i : S100000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v142).slice (win7_4.rect t)).set ↔ _
  rw [View.set_slice_whole, Rect.mem_set_unit]
  exact Iff.rfl

/-- Row `r` lies in the block of point `r / 5000`: the twenty blocks cover the array. -/
theorem cover7 (i : S100000x64.Idx) :
    ∃ t : Fin cfg7.N, (cfg7.win 4).flush t = true ∧ i ∈ ((cfg7.win 4).blk t).view.set := by
  have hi0 : (i 0).val < 100000 := (i 0).isLt
  have hi1 : (i 1).val < 64 := (i 1).isLt
  have hN : grid7.N = 20 := N_7
  obtain ⟨t, ht⟩ : ∃ t : Fin cfg7.N, t.val = (i 0).val / 5000 :=
    ⟨⟨(i 0).val / 5000, by show _ < grid7.N; rw [hN]; omega⟩, rfl⟩
  obtain ⟨-, -, -, -, -, -, -, -, e40, e41⟩ := idx7 t
  refine ⟨t, flush7_4 t, ?_⟩
  rw [mem_blk7]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

/-- THE OUTPUT ARRAY after the region: the last layer of the arrays the region finds. -/
theorem final7 (c : Dev nD) :
    (dat7 V c).arrAt 4 cfg7.N
      = head (M := 100000) (K := 128) (N := 64) (V c main_v140) (V c main_v16) (V c main_arg3) (V c main_v141) :=
  (dat7 V c).arrAt_eq_of_cover 4 _ (fun t _ => flushed7 V c t) cover7

end Cert.KernelIdeal.Layers

end
-- ==== Proof.Host7.lean ====
/-
  The host operations between pallas_calls 6 and 7, read at the buffers the run needs, from ANY buffer contents `W`:
  the aggregate of the previous call's output and the last layer's bias row; and the in-degree factor column and the
  last layer's weights keep their contents (no operation writes one).
-/
import proofs.«127991_j20306605375975_1_alg».proof.Proof.Gen.KernelIdeal.Launch
import proofs.«127991_j20306605375975_1_alg».proof.Proof.HostSpec
import Idealize.ShloMosaic.Lib.StableHlo.Run

noncomputable section

namespace Cert.KernelIdeal.Layers

open Cert.KernelIdeal Cert.KernelIdeal.Gen Cert.KernelIdeal.Spec Idealize.ShloMosaic Idealize.ShloMosaic.TcCoe Idealize.SL.Sem Idealize.ShloMosaic.StableHlo

variable {F : FTy → Type} [FloatOps F] (W : Valuation τ sig (Elt F))

theorem h7_agg : StableHlo.after (hostOps7 (F := F)) W (Proc.devRef .tc main_v140)
    = agg (W (Proc.devRef .tc main_v130)) (W (Proc.devRef .tc main_arg5)) (W (Proc.devRef .tc main_arg6)) := by
  after_results_simp
  rfl

theorem h7_b : StableHlo.after (hostOps7 (F := F)) W (Proc.devRef .tc main_v141) = bOut (W (Proc.devRef .tc main_arg4)) := by
  after_results_simp
  rfl

theorem h7_keep_v16 : StableHlo.after (hostOps7 (F := F)) W (Proc.devRef .tc main_v16) = W (Proc.devRef .tc main_v16) := by
  after_results_simp

theorem h7_keep_arg3 : StableHlo.after (hostOps7 (F := F)) W (Proc.devRef .tc main_arg3) = W (Proc.devRef .tc main_arg3) := by
  after_results_simp

end Cert.KernelIdeal.Layers

end
-- ==== Proof.Stack.lean ====
/-
  The whole network as one function of the seven argument arrays, on the extended reals.

  `layer X src dst W b` is one hidden graph layer applied to already out-degree-scaled features `X`: aggregate along
  the edges, then `hidden` (in-degree factor, weights, bias, rectifier, out-degree factor for the next layer).
  `X1 … X7` are the successive layers from the scaled input features, each with its own slice of the stacked weights
  and biases; `out` is the last layer (aggregate, in-degree factor, weights, bias, logistic function).  The kernel's
  program and the reference both compute exactly this, the kernel row block by row block.
-/
import proofs.«127991_j20306605375975_1_alg».proof.Proof.HostSpec
import proofs.«127991_j20306605375975_1_alg».proof.Proof.LibGcnDense

noncomputable section

namespace Cert.KernelIdeal.Spec

open Cert.KernelIdeal Idealize.ShloMosaic Cert.Dense Cert.GcnDense

/-- One hidden graph layer on out-degree-scaled features. -/
def layer (X : (⟨S100000x128, .f32⟩ : BufTy).Contents (Elt Ideal)) (src dst : (⟨S1600000, .i32⟩ : BufTy).Contents (Elt Ideal))
    (W : (⟨S128x128, .f32⟩ : BufTy).Contents (Elt Ideal)) (b : (⟨S1x128, .f32⟩ : BufTy).Contents (Elt Ideal)) : (⟨S100000x128, .f32⟩ : BufTy).Contents (Elt Ideal) :=
  hidden (M := 100000) (K := 128) (N := 128) (agg X src dst) (normCol dst) (normCol src) W b

/-- The last graph layer on out-degree-scaled features. -/
def last (X : (⟨S100000x128, .f32⟩ : BufTy).Contents (Elt Ideal)) (src dst : (⟨S1600000, .i32⟩ : BufTy).Contents (Elt Ideal))
    (W : (⟨S128x64, .f32⟩ : BufTy).Contents (Elt Ideal)) (b : (⟨S1x64, .f32⟩ : BufTy).Contents (Elt Ideal)) : (⟨S100000x64, .f32⟩ : BufTy).Contents (Elt Ideal) :=
  head (M := 100000) (K := 128) (N := 64) (agg X src dst) (normCol dst) W b

section
variable (a0 : (⟨S100000x128, .f32⟩ : BufTy).Contents (Elt Ideal)) (a1 : (⟨S7x128x128, .f32⟩ : BufTy).Contents (Elt Ideal)) (a2 : (⟨S7x128, .f32⟩ : BufTy).Contents (Elt Ideal))
  (a3 : (⟨S128x64, .f32⟩ : BufTy).Contents (Elt Ideal)) (a4 : (⟨S64, .f32⟩ : BufTy).Contents (Elt Ideal)) (a5 a6 : (⟨S1600000, .i32⟩ : BufTy).Contents (Elt Ideal))

/-- The features after hidden layer 0, scaled for the next aggregation. -/
def X1 : (⟨S100000x128, .f32⟩ : BufTy).Contents (Elt Ideal) := layer (feat0 a0 a5) a5 a6 (wSlice0 a1) (bRow0 a2)
/-- The features after hidden layer 1, scaled for the next aggregation. -/
def X2 : (⟨S100000x128, .f32⟩ : BufTy).Contents (Elt Ideal) := layer (X1 a0 a1 a2 a5 a6) a5 a6 (wSlice1 a1) (bRow1 a2)
/-- The features after hidden layer 2, scaled for the next aggregation. -/
def X3 : (⟨S100000x128, .f32⟩ : BufTy).Contents (Elt Ideal) := layer (X2 a0 a1 a2 a5 a6) a5 a6 (wSlice2 a1) (bRow2 a2)
/-- The features after hidden layer 3, scaled for the next aggregation. -/
def X4 : (⟨S100000x128, .f32⟩ : BufTy).Contents (Elt Ideal) := layer (X3 a0 a1 a2 a5 a6) a5 a6 (wSlice3 a1) (bRow3 a2)
/-- The features after hidden layer 4, scaled for the next aggregation. -/
def X5 : (⟨S100000x128, .f32⟩ : BufTy).Contents (Elt Ideal) := layer (X4 a0 a1 a2 a5 a6) a5 a6 (wSlice4 a1) (bRow4 a2)
/-- The features after hidden layer 5, scaled for the next aggregation. -/
def X6 : (⟨S100000x128, .f32⟩ : BufTy).Contents (Elt Ideal) := layer (X5 a0 a1 a2 a5 a6) a5 a6 (wSlice5 a1) (bRow5 a2)
/-- The features after hidden layer 6, scaled for the next aggregation. -/
def X7 : (⟨S100000x128, .f32⟩ : BufTy).Contents (Elt Ideal) := layer (X6 a0 a1 a2 a5 a6) a5 a6 (wSlice6 a1) (bRow6 a2)
/-- The network's result. -/
def netOut : (⟨S100000x64, .f32⟩ : BufTy).Contents (Elt Ideal) := last (X7 a0 a1 a2 a5 a6) a5 a6 a3 (bOut a4)
end

/-- `hidden` of equal operands. -/
theorem hidden_congr {M K N : ℕ} {A A' : Mat M K} {nd nd' ns ns' : Mat M 1} {W W' : Mat K N} {b b' : Mat 1 N}
    (hA : A = A') (hnd : nd = nd') (hns : ns = ns') (hW : W = W') (hb : b = b') :
    hidden A nd ns W b = hidden A' nd' ns' W' b' := by
  subst hA hnd hns hW hb; rfl

/-- `head` of equal operands. -/
theorem head_congr {M K N : ℕ} {A A' : Mat M K} {nd nd' : Mat M 1} {W W' : Mat K N} {b b' : Mat 1 N}
    (hA : A = A') (hnd : nd = nd') (hW : W = W') (hb : b = b') :
    head A nd W b = head A' nd' W' b' := by
  subst hA hnd hW hb; rfl

end Cert.KernelIdeal.Spec

end
-- ==== Proof.Chain.lean ====
/-
  The buffer contents at every segment boundary of the kernel's program, named: the contents when pallas_call `k` is
  entered and left, as functions of the launch contents of the seven argument arrays.

  By induction along the program's sixteen segments.  A host stretch writes the next aggregate (of the previous
  call's output), the next layer's weights and bias row, and keeps the argument buffers and the two degree-factor
  columns; a pallas_call writes its output array — `hidden` (at the end `head`) of the arrays it finds — and keeps
  its input arrays and every other buffer.  So after call `k` its output holds `X(k+1)` of the arguments, and after
  the last call the result buffer holds `out`.
-/
import proofs.«127991_j20306605375975_1_alg».proof.Proof.Gen.KernelIdeal.Frame
import proofs.«127991_j20306605375975_1_alg».proof.Proof.Region0
import proofs.«127991_j20306605375975_1_alg».proof.Proof.Host0
import proofs.«127991_j20306605375975_1_alg».proof.Proof.Region1
import proofs.«127991_j20306605375975_1_alg».proof.Proof.Host1
import proofs.«127991_j20306605375975_1_alg».proof.Proof.Region2
import proofs.«127991_j20306605375975_1_alg».proof.Proof.Host2
import proofs.«127991_j20306605375975_1_alg».proof.Proof.Region3
import proofs.«127991_j20306605375975_1_alg».proof.Proof.Host3
import proofs.«127991_j20306605375975_1_alg».proof.Proof.Region4
import proofs.«127991_j20306605375975_1_alg».proof.Proof.Host4
import proofs.«127991_j20306605375975_1_alg».proof.Proof.Region5
import proofs.«127991_j20306605375975_1_alg».proof.Proof.Host5
import proofs.«127991_j20306605375975_1_alg».proof.Proof.Region6
import proofs.«127991_j20306605375975_1_alg».proof.Proof.Host6
import proofs.«127991_j20306605375975_1_alg».proof.Proof.Region7
import proofs.«127991_j20306605375975_1_alg».proof.Proof.Host7
import proofs.«127991_j20306605375975_1_alg».proof.Proof.Stack

set_option maxRecDepth 16384

noncomputable section

namespace Cert.KernelIdeal.Layers

open Cert.KernelIdeal Cert.KernelIdeal.Gen Cert.KernelIdeal.Spec Idealize.ShloMosaic Idealize.ShloMosaic.TcCoe Idealize.SL.Sem
open Cert.Dense Cert.GcnDense

variable (m : (ℓ : Loc nD τ sig) → Buf (Elt Ideal) ℓ) (ρ : Dev nD → PrngReg)

/-! ## The launch contents of the arguments on a core -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-! ## Entry of pallas_call 0 (after the first host stretch) -/
theorem W1_v15 (c : Dev nD) : W1 m ρ c (Proc.devRef .tc main_v15) = normCol (a5 m c) := h0_v15 (W0 m ρ c)
theorem W1_v16 (c : Dev nD) : W1 m ρ c (Proc.devRef .tc main_v16) = normCol (a6 m c) := h0_v16 (W0 m ρ c)
theorem W1_agg (c : Dev nD) : W1 m ρ c (Proc.devRef .tc main_v28) = agg (feat0 (a0 m c) (a5 m c)) (a5 m c) (a6 m c) := h0_agg (W0 m ρ c)
theorem W1_w (c : Dev nD) : W1 m ρ c (Proc.devRef .tc main_v33) = wSlice0 (a1 m c) := h0_w (W0 m ρ c)
theorem W1_b (c : Dev nD) : W1 m ρ c (Proc.devRef .tc main_v31) = bRow0 (a2 m c) := h0_b (W0 m ρ c)
theorem W1_arg1 (c : Dev nD) : W1 m ρ c (Proc.devRef .tc main_arg1) = (a1 m c) := h0_keep_arg1 (W0 m ρ c)
theorem W1_arg2 (c : Dev nD) : W1 m ρ c (Proc.devRef .tc main_arg2) = (a2 m c) := h0_keep_arg2 (W0 m ρ c)
theorem W1_arg3 (c : Dev nD) : W1 m ρ c (Proc.devRef .tc main_arg3) = (a3 m c) := h0_keep_arg3 (W0 m ρ c)
theorem W1_arg4 (c : Dev nD) : W1 m ρ c (Proc.devRef .tc main_arg4) = (a4 m c) := h0_keep_arg4 (W0 m ρ c)
theorem W1_arg5 (c : Dev nD) : W1 m ρ c (Proc.devRef .tc main_arg5) = (a5 m c) := h0_keep_arg5 (W0 m ρ c)
theorem W1_arg6 (c : Dev nD) : W1 m ρ c (Proc.devRef .tc main_arg6) = (a6 m c) := h0_keep_arg6 (W0 m ρ c)

/-! ## Exit of pallas_call 0 -/
theorem W2_out (c : Dev nD) : W2 m ρ c (Proc.devRef .tc main_v34) = X1 (a0 m c) (a1 m c) (a2 m c) (a5 m c) (a6 m c) :=
  (W2_arr m ρ c 5).trans ((final0 (V1 m ρ) c).trans
    (hidden_congr (W1_agg m ρ c) (W1_v16 m ρ c) (W1_v15 m ρ c) (W1_w m ρ c) (W1_b m ρ c)))
theorem W2_v16 (c : Dev nD) : W2 m ρ c (Proc.devRef .tc main_v16) = normCol (a6 m c) :=
  (W2_arr m ρ c 1).trans ((kept0 (V1 m ρ) c 1 rfl).trans (W1_v16 m ρ c))
theorem W2_v15 (c : Dev nD) : W2 m ρ c (Proc.devRef .tc main_v15) = normCol (a5 m c) :=
  (W2_arr m ρ c 2).trans ((kept0 (V1 m ρ) c 2 rfl).trans (W1_v15 m ρ c))
theorem W2_arg1 (c : Dev nD) : W2 m ρ c (Proc.devRef .tc main_arg1) = (a1 m c) :=
  (W2_of_ne m ρ c main_arg1 (by decide)).trans (W1_arg1 m ρ c)
theorem W2_arg2 (c : Dev nD) : W2 m ρ c (Proc.devRef .tc main_arg2) = (a2 m c) :=
  (W2_of_ne m ρ c main_arg2 (by decide)).trans (W1_arg2 m ρ c)
theorem W2_arg3 (c : Dev nD) : W2 m ρ c (Proc.devRef .tc main_arg3) = (a3 m c) :=
  (W2_of_ne m ρ c main_arg3 (by decide)).trans (W1_arg3 m ρ c)
theorem W2_arg4 (c : Dev nD) : W2 m ρ c (Proc.devRef .tc main_arg4) = (a4 m c) :=
  (W2_of_ne m ρ c main_arg4 (by decide)).trans (W1_arg4 m ρ c)
theorem W2_arg5 (c : Dev nD) : W2 m ρ c (Proc.devRef .tc main_arg5) = (a5 m c) :=
  (W2_of_ne m ρ c main_arg5 (by decide)).trans (W1_arg5 m ρ c)
theorem W2_arg6 (c : Dev nD) : W2 m ρ c (Proc.devRef .tc main_arg6) = (a6 m c) :=
  (W2_of_ne m ρ c main_arg6 (by decide)).trans (W1_arg6 m ρ c)

/-! ## Entry of pallas_call 1 -/
theorem W3_agg (c : Dev nD) : W3 m ρ c (Proc.devRef .tc main_v44) = agg (X1 (a0 m c) (a1 m c) (a2 m c) (a5 m c) (a6 m c)) (a5 m c) (a6 m c) :=
  (h1_agg (W2 m ρ c)).trans (by rw [W2_out m ρ c, W2_arg5 m ρ c, W2_arg6 m ρ c])
theorem W3_w (c : Dev nD) : W3 m ρ c (Proc.devRef .tc main_v49) = wSlice1 (a1 m c) :=
  (h1_w (W2 m ρ c)).trans (by rw [W2_arg1 m ρ c])
theorem W3_b (c : Dev nD) : W3 m ρ c (Proc.devRef .tc main_v47) = bRow1 (a2 m c) :=
  (h1_b (W2 m ρ c)).trans (by rw [W2_arg2 m ρ c])
theorem W3_v15 (c : Dev nD) : W3 m ρ c (Proc.devRef .tc main_v15) = normCol (a5 m c) :=
  (h1_keep_v15 (W2 m ρ c)).trans (W2_v15 m ρ c)
theorem W3_v16 (c : Dev nD) : W3 m ρ c (Proc.devRef .tc main_v16) = normCol (a6 m c) :=
  (h1_keep_v16 (W2 m ρ c)).trans (W2_v16 m ρ c)
theorem W3_arg1 (c : Dev nD) : W3 m ρ c (Proc.devRef .tc main_arg1) = (a1 m c) :=
  (h1_keep_arg1 (W2 m ρ c)).trans (W2_arg1 m ρ c)
theorem W3_arg2 (c : Dev nD) : W3 m ρ c (Proc.devRef .tc main_arg2) = (a2 m c) :=
  (h1_keep_arg2 (W2 m ρ c)).trans (W2_arg2 m ρ c)
theorem W3_arg3 (c : Dev nD) : W3 m ρ c (Proc.devRef .tc main_arg3) = (a3 m c) :=
  (h1_keep_arg3 (W2 m ρ c)).trans (W2_arg3 m ρ c)
theorem W3_arg4 (c : Dev nD) : W3 m ρ c (Proc.devRef .tc main_arg4) = (a4 m c) :=
  (h1_keep_arg4 (W2 m ρ c)).trans (W2_arg4 m ρ c)
theorem W3_arg5 (c : Dev nD) : W3 m ρ c (Proc.devRef .tc main_arg5) = (a5 m c) :=
  (h1_keep_arg5 (W2 m ρ c)).trans (W2_arg5 m ρ c)
theorem W3_arg6 (c : Dev nD) : W3 m ρ c (Proc.devRef .tc main_arg6) = (a6 m c) :=
  (h1_keep_arg6 (W2 m ρ c)).trans (W2_arg6 m ρ c)

/-! ## Exit of pallas_call 1 -/
theorem W4_out (c : Dev nD) : W4 m ρ c (Proc.devRef .tc main_v50) = X2 (a0 m c) (a1 m c) (a2 m c) (a5 m c) (a6 m c) :=
  (W4_arr m ρ c 5).trans ((final1 (V3 m ρ) c).trans
    (hidden_congr (W3_agg m ρ c) (W3_v16 m ρ c) (W3_v15 m ρ c) (W3_w m ρ c) (W3_b m ρ c)))
theorem W4_v16 (c : Dev nD) : W4 m ρ c (Proc.devRef .tc main_v16) = normCol (a6 m c) :=
  (W4_arr m ρ c 1).trans ((kept1 (V3 m ρ) c 1 rfl).trans (W3_v16 m ρ c))
theorem W4_v15 (c : Dev nD) : W4 m ρ c (Proc.devRef .tc main_v15) = normCol (a5 m c) :=
  (W4_arr m ρ c 2).trans ((kept1 (V3 m ρ) c 2 rfl).trans (W3_v15 m ρ c))
theorem W4_arg1 (c : Dev nD) : W4 m ρ c (Proc.devRef .tc main_arg1) = (a1 m c) :=
  (W4_of_ne m ρ c main_arg1 (by decide)).trans (W3_arg1 m ρ c)
theorem W4_arg2 (c : Dev nD) : W4 m ρ c (Proc.devRef .tc main_arg2) = (a2 m c) :=
  (W4_of_ne m ρ c main_arg2 (by decide)).trans (W3_arg2 m ρ c)
theorem W4_arg3 (c : Dev nD) : W4 m ρ c (Proc.devRef .tc main_arg3) = (a3 m c) :=
  (W4_of_ne m ρ c main_arg3 (by decide)).trans (W3_arg3 m ρ c)
theorem W4_arg4 (c : Dev nD) : W4 m ρ c (Proc.devRef .tc main_arg4) = (a4 m c) :=
  (W4_of_ne m ρ c main_arg4 (by decide)).trans (W3_arg4 m ρ c)
theorem W4_arg5 (c : Dev nD) : W4 m ρ c (Proc.devRef .tc main_arg5) = (a5 m c) :=
  (W4_of_ne m ρ c main_arg5 (by decide)).trans (W3_arg5 m ρ c)
theorem W4_arg6 (c : Dev nD) : W4 m ρ c (Proc.devRef .tc main_arg6) = (a6 m c) :=
  (W4_of_ne m ρ c main_arg6 (by decide)).trans (W3_arg6 m ρ c)

/-! ## Entry of pallas_call 2 -/
theorem W5_agg (c : Dev nD) : W5 m ρ c (Proc.devRef .tc main_v60) = agg (X2 (a0 m c) (a1 m c) (a2 m c) (a5 m c) (a6 m c)) (a5 m c) (a6 m c) :=
  (h2_agg (W4 m ρ c)).trans (by rw [W4_out m ρ c, W4_arg5 m ρ c, W4_arg6 m ρ c])
theorem W5_w (c : Dev nD) : W5 m ρ c (Proc.devRef .tc main_v65) = wSlice2 (a1 m c) :=
  (h2_w (W4 m ρ c)).trans (by rw [W4_arg1 m ρ c])
theorem W5_b (c : Dev nD) : W5 m ρ c (Proc.devRef .tc main_v63) = bRow2 (a2 m c) :=
  (h2_b (W4 m ρ c)).trans (by rw [W4_arg2 m ρ c])
theorem W5_v15 (c : Dev nD) : W5 m ρ c (Proc.devRef .tc main_v15) = normCol (a5 m c) :=
  (h2_keep_v15 (W4 m ρ c)).trans (W4_v15 m ρ c)
theorem W5_v16 (c : Dev nD) : W5 m ρ c (Proc.devRef .tc main_v16) = normCol (a6 m c) :=
  (h2_keep_v16 (W4 m ρ c)).trans (W4_v16 m ρ c)
theorem W5_arg1 (c : Dev nD) : W5 m ρ c (Proc.devRef .tc main_arg1) = (a1 m c) :=
  (h2_keep_arg1 (W4 m ρ c)).trans (W4_arg1 m ρ c)
theorem W5_arg2 (c : Dev nD) : W5 m ρ c (Proc.devRef .tc main_arg2) = (a2 m c) :=
  (h2_keep_arg2 (W4 m ρ c)).trans (W4_arg2 m ρ c)
theorem W5_arg3 (c : Dev nD) : W5 m ρ c (Proc.devRef .tc main_arg3) = (a3 m c) :=
  (h2_keep_arg3 (W4 m ρ c)).trans (W4_arg3 m ρ c)
theorem W5_arg4 (c : Dev nD) : W5 m ρ c (Proc.devRef .tc main_arg4) = (a4 m c) :=
  (h2_keep_arg4 (W4 m ρ c)).trans (W4_arg4 m ρ c)
theorem W5_arg5 (c : Dev nD) : W5 m ρ c (Proc.devRef .tc main_arg5) = (a5 m c) :=
  (h2_keep_arg5 (W4 m ρ c)).trans (W4_arg5 m ρ c)
theorem W5_arg6 (c : Dev nD) : W5 m ρ c (Proc.devRef .tc main_arg6) = (a6 m c) :=
  (h2_keep_arg6 (W4 m ρ c)).trans (W4_arg6 m ρ c)

/-! ## Exit of pallas_call 2 -/
theorem W6_out (c : Dev nD) : W6 m ρ c (Proc.devRef .tc main_v66) = X3 (a0 m c) (a1 m c) (a2 m c) (a5 m c) (a6 m c) :=
  (W6_arr m ρ c 5).trans ((final2 (V5 m ρ) c).trans
    (hidden_congr (W5_agg m ρ c) (W5_v16 m ρ c) (W5_v15 m ρ c) (W5_w m ρ c) (W5_b m ρ c)))
theorem W6_v16 (c : Dev nD) : W6 m ρ c (Proc.devRef .tc main_v16) = normCol (a6 m c) :=
  (W6_arr m ρ c 1).trans ((kept2 (V5 m ρ) c 1 rfl).trans (W5_v16 m ρ c))
theorem W6_v15 (c : Dev nD) : W6 m ρ c (Proc.devRef .tc main_v15) = normCol (a5 m c) :=
  (W6_arr m ρ c 2).trans ((kept2 (V5 m ρ) c 2 rfl).trans (W5_v15 m ρ c))
theorem W6_arg1 (c : Dev nD) : W6 m ρ c (Proc.devRef .tc main_arg1) = (a1 m c) :=
  (W6_of_ne m ρ c main_arg1 (by decide)).trans (W5_arg1 m ρ c)
theorem W6_arg2 (c : Dev nD) : W6 m ρ c (Proc.devRef .tc main_arg2) = (a2 m c) :=
  (W6_of_ne m ρ c main_arg2 (by decide)).trans (W5_arg2 m ρ c)
theorem W6_arg3 (c : Dev nD) : W6 m ρ c (Proc.devRef .tc main_arg3) = (a3 m c) :=
  (W6_of_ne m ρ c main_arg3 (by decide)).trans (W5_arg3 m ρ c)
theorem W6_arg4 (c : Dev nD) : W6 m ρ c (Proc.devRef .tc main_arg4) = (a4 m c) :=
  (W6_of_ne m ρ c main_arg4 (by decide)).trans (W5_arg4 m ρ c)
theorem W6_arg5 (c : Dev nD) : W6 m ρ c (Proc.devRef .tc main_arg5) = (a5 m c) :=
  (W6_of_ne m ρ c main_arg5 (by decide)).trans (W5_arg5 m ρ c)
theorem W6_arg6 (c : Dev nD) : W6 m ρ c (Proc.devRef .tc main_arg6) = (a6 m c) :=
  (W6_of_ne m ρ c main_arg6 (by decide)).trans (W5_arg6 m ρ c)

/-! ## Entry of pallas_call 3 -/
theorem W7_agg (c : Dev nD) : W7 m ρ c (Proc.devRef .tc main_v76) = agg (X3 (a0 m c) (a1 m c) (a2 m c) (a5 m c) (a6 m c)) (a5 m c) (a6 m c) :=
  (h3_agg (W6 m ρ c)).trans (by rw [W6_out m ρ c, W6_arg5 m ρ c, W6_arg6 m ρ c])
theorem W7_w (c : Dev nD) : W7 m ρ c (Proc.devRef .tc main_v81) = wSlice3 (a1 m c) :=
  (h3_w (W6 m ρ c)).trans (by rw [W6_arg1 m ρ c])
theorem W7_b (c : Dev nD) : W7 m ρ c (Proc.devRef .tc main_v79) = bRow3 (a2 m c) :=
  (h3_b (W6 m ρ c)).trans (by rw [W6_arg2 m ρ c])
theorem W7_v15 (c : Dev nD) : W7 m ρ c (Proc.devRef .tc main_v15) = normCol (a5 m c) :=
  (h3_keep_v15 (W6 m ρ c)).trans (W6_v15 m ρ c)
theorem W7_v16 (c : Dev nD) : W7 m ρ c (Proc.devRef .tc main_v16) = normCol (a6 m c) :=
  (h3_keep_v16 (W6 m ρ c)).trans (W6_v16 m ρ c)
theorem W7_arg1 (c : Dev nD) : W7 m ρ c (Proc.devRef .tc main_arg1) = (a1 m c) :=
  (h3_keep_arg1 (W6 m ρ c)).trans (W6_arg1 m ρ c)
theorem W7_arg2 (c : Dev nD) : W7 m ρ c (Proc.devRef .tc main_arg2) = (a2 m c) :=
  (h3_keep_arg2 (W6 m ρ c)).trans (W6_arg2 m ρ c)
theorem W7_arg3 (c : Dev nD) : W7 m ρ c (Proc.devRef .tc main_arg3) = (a3 m c) :=
  (h3_keep_arg3 (W6 m ρ c)).trans (W6_arg3 m ρ c)
theorem W7_arg4 (c : Dev nD) : W7 m ρ c (Proc.devRef .tc main_arg4) = (a4 m c) :=
  (h3_keep_arg4 (W6 m ρ c)).trans (W6_arg4 m ρ c)
theorem W7_arg5 (c : Dev nD) : W7 m ρ c (Proc.devRef .tc main_arg5) = (a5 m c) :=
  (h3_keep_arg5 (W6 m ρ c)).trans (W6_arg5 m ρ c)
theorem W7_arg6 (c : Dev nD) : W7 m ρ c (Proc.devRef .tc main_arg6) = (a6 m c) :=
  (h3_keep_arg6 (W6 m ρ c)).trans (W6_arg6 m ρ c)

/-! ## Exit of pallas_call 3 -/
theorem W8_out (c : Dev nD) : W8 m ρ c (Proc.devRef .tc main_v82) = X4 (a0 m c) (a1 m c) (a2 m c) (a5 m c) (a6 m c) :=
  (W8_arr m ρ c 5).trans ((final3 (V7 m ρ) c).trans
    (hidden_congr (W7_agg m ρ c) (W7_v16 m ρ c) (W7_v15 m ρ c) (W7_w m ρ c) (W7_b m ρ c)))
theorem W8_v16 (c : Dev nD) : W8 m ρ c (Proc.devRef .tc main_v16) = normCol (a6 m c) :=
  (W8_arr m ρ c 1).trans ((kept3 (V7 m ρ) c 1 rfl).trans (W7_v16 m ρ c))
theorem W8_v15 (c : Dev nD) : W8 m ρ c (Proc.devRef .tc main_v15) = normCol (a5 m c) :=
  (W8_arr m ρ c 2).trans ((kept3 (V7 m ρ) c 2 rfl).trans (W7_v15 m ρ c))
theorem W8_arg1 (c : Dev nD) : W8 m ρ c (Proc.devRef .tc main_arg1) = (a1 m c) :=
  (W8_of_ne m ρ c main_arg1 (by decide)).trans (W7_arg1 m ρ c)
theorem W8_arg2 (c : Dev nD) : W8 m ρ c (Proc.devRef .tc main_arg2) = (a2 m c) :=
  (W8_of_ne m ρ c main_arg2 (by decide)).trans (W7_arg2 m ρ c)
theorem W8_arg3 (c : Dev nD) : W8 m ρ c (Proc.devRef .tc main_arg3) = (a3 m c) :=
  (W8_of_ne m ρ c main_arg3 (by decide)).trans (W7_arg3 m ρ c)
theorem W8_arg4 (c : Dev nD) : W8 m ρ c (Proc.devRef .tc main_arg4) = (a4 m c) :=
  (W8_of_ne m ρ c main_arg4 (by decide)).trans (W7_arg4 m ρ c)
theorem W8_arg5 (c : Dev nD) : W8 m ρ c (Proc.devRef .tc main_arg5) = (a5 m c) :=
  (W8_of_ne m ρ c main_arg5 (by decide)).trans (W7_arg5 m ρ c)
theorem W8_arg6 (c : Dev nD) : W8 m ρ c (Proc.devRef .tc main_arg6) = (a6 m c) :=
  (W8_of_ne m ρ c main_arg6 (by decide)).trans (W7_arg6 m ρ c)

/-! ## Entry of pallas_call 4 -/
theorem W9_agg (c : Dev nD) : W9 m ρ c (Proc.devRef .tc main_v92) = agg (X4 (a0 m c) (a1 m c) (a2 m c) (a5 m c) (a6 m c)) (a5 m c) (a6 m c) :=
  (h4_agg (W8 m ρ c)).trans (by rw [W8_out m ρ c, W8_arg5 m ρ c, W8_arg6 m ρ c])
theorem W9_w (c : Dev nD) : W9 m ρ c (Proc.devRef .tc main_v97) = wSlice4 (a1 m c) :=
  (h4_w (W8 m ρ c)).trans (by rw [W8_arg1 m ρ c])
theorem W9_b (c : Dev nD) : W9 m ρ c (Proc.devRef .tc main_v95) = bRow4 (a2 m c) :=
  (h4_b (W8 m ρ c)).trans (by rw [W8_arg2 m ρ c])
theorem W9_v15 (c : Dev nD) : W9 m ρ c (Proc.devRef .tc main_v15) = normCol (a5 m c) :=
  (h4_keep_v15 (W8 m ρ c)).trans (W8_v15 m ρ c)
theorem W9_v16 (c : Dev nD) : W9 m ρ c (Proc.devRef .tc main_v16) = normCol (a6 m c) :=
  (h4_keep_v16 (W8 m ρ c)).trans (W8_v16 m ρ c)
theorem W9_arg1 (c : Dev nD) : W9 m ρ c (Proc.devRef .tc main_arg1) = (a1 m c) :=
  (h4_keep_arg1 (W8 m ρ c)).trans (W8_arg1 m ρ c)
theorem W9_arg2 (c : Dev nD) : W9 m ρ c (Proc.devRef .tc main_arg2) = (a2 m c) :=
  (h4_keep_arg2 (W8 m ρ c)).trans (W8_arg2 m ρ c)
theorem W9_arg3 (c : Dev nD) : W9 m ρ c (Proc.devRef .tc main_arg3) = (a3 m c) :=
  (h4_keep_arg3 (W8 m ρ c)).trans (W8_arg3 m ρ c)
theorem W9_arg4 (c : Dev nD) : W9 m ρ c (Proc.devRef .tc main_arg4) = (a4 m c) :=
  (h4_keep_arg4 (W8 m ρ c)).trans (W8_arg4 m ρ c)
theorem W9_arg5 (c : Dev nD) : W9 m ρ c (Proc.devRef .tc main_arg5) = (a5 m c) :=
  (h4_keep_arg5 (W8 m ρ c)).trans (W8_arg5 m ρ c)
theorem W9_arg6 (c : Dev nD) : W9 m ρ c (Proc.devRef .tc main_arg6) = (a6 m c) :=
  (h4_keep_arg6 (W8 m ρ c)).trans (W8_arg6 m ρ c)

/-! ## Exit of pallas_call 4 -/
theorem W10_out (c : Dev nD) : W10 m ρ c (Proc.devRef .tc main_v98) = X5 (a0 m c) (a1 m c) (a2 m c) (a5 m c) (a6 m c) :=
  (W10_arr m ρ c 5).trans ((final4 (V9 m ρ) c).trans
    (hidden_congr (W9_agg m ρ c) (W9_v16 m ρ c) (W9_v15 m ρ c) (W9_w m ρ c) (W9_b m ρ c)))
theorem W10_v16 (c : Dev nD) : W10 m ρ c (Proc.devRef .tc main_v16) = normCol (a6 m c) :=
  (W10_arr m ρ c 1).trans ((kept4 (V9 m ρ) c 1 rfl).trans (W9_v16 m ρ c))
theorem W10_v15 (c : Dev nD) : W10 m ρ c (Proc.devRef .tc main_v15) = normCol (a5 m c) :=
  (W10_arr m ρ c 2).trans ((kept4 (V9 m ρ) c 2 rfl).trans (W9_v15 m ρ c))
theorem W10_arg1 (c : Dev nD) : W10 m ρ c (Proc.devRef .tc main_arg1) = (a1 m c) :=
  (W10_of_ne m ρ c main_arg1 (by decide)).trans (W9_arg1 m ρ c)
theorem W10_arg2 (c : Dev nD) : W10 m ρ c (Proc.devRef .tc main_arg2) = (a2 m c) :=
  (W10_of_ne m ρ c main_arg2 (by decide)).trans (W9_arg2 m ρ c)
theorem W10_arg3 (c : Dev nD) : W10 m ρ c (Proc.devRef .tc main_arg3) = (a3 m c) :=
  (W10_of_ne m ρ c main_arg3 (by decide)).trans (W9_arg3 m ρ c)
theorem W10_arg4 (c : Dev nD) : W10 m ρ c (Proc.devRef .tc main_arg4) = (a4 m c) :=
  (W10_of_ne m ρ c main_arg4 (by decide)).trans (W9_arg4 m ρ c)
theorem W10_arg5 (c : Dev nD) : W10 m ρ c (Proc.devRef .tc main_arg5) = (a5 m c) :=
  (W10_of_ne m ρ c main_arg5 (by decide)).trans (W9_arg5 m ρ c)
theorem W10_arg6 (c : Dev nD) : W10 m ρ c (Proc.devRef .tc main_arg6) = (a6 m c) :=
  (W10_of_ne m ρ c main_arg6 (by decide)).trans (W9_arg6 m ρ c)

/-! ## Entry of pallas_call 5 -/
theorem W11_agg (c : Dev nD) : W11 m ρ c (Proc.devRef .tc main_v108) = agg (X5 (a0 m c) (a1 m c) (a2 m c) (a5 m c) (a6 m c)) (a5 m c) (a6 m c) :=
  (h5_agg (W10 m ρ c)).trans (by rw [W10_out m ρ c, W10_arg5 m ρ c, W10_arg6 m ρ c])
theorem W11_w (c : Dev nD) : W11 m ρ c (Proc.devRef .tc main_v113) = wSlice5 (a1 m c) :=
  (h5_w (W10 m ρ c)).trans (by rw [W10_arg1 m ρ c])
theorem W11_b (c : Dev nD) : W11 m ρ c (Proc.devRef .tc main_v111) = bRow5 (a2 m c) :=
  (h5_b (W10 m ρ c)).trans (by rw [W10_arg2 m ρ c])
theorem W11_v15 (c : Dev nD) : W11 m ρ c (Proc.devRef .tc main_v15) = normCol (a5 m c) :=
  (h5_keep_v15 (W10 m ρ c)).trans (W10_v15 m ρ c)
theorem W11_v16 (c : Dev nD) : W11 m ρ c (Proc.devRef .tc main_v16) = normCol (a6 m c) :=
  (h5_keep_v16 (W10 m ρ c)).trans (W10_v16 m ρ c)
theorem W11_arg1 (c : Dev nD) : W11 m ρ c (Proc.devRef .tc main_arg1) = (a1 m c) :=
  (h5_keep_arg1 (W10 m ρ c)).trans (W10_arg1 m ρ c)
theorem W11_arg2 (c : Dev nD) : W11 m ρ c (Proc.devRef .tc main_arg2) = (a2 m c) :=
  (h5_keep_arg2 (W10 m ρ c)).trans (W10_arg2 m ρ c)
theorem W11_arg3 (c : Dev nD) : W11 m ρ c (Proc.devRef .tc main_arg3) = (a3 m c) :=
  (h5_keep_arg3 (W10 m ρ c)).trans (W10_arg3 m ρ c)
theorem W11_arg4 (c : Dev nD) : W11 m ρ c (Proc.devRef .tc main_arg4) = (a4 m c) :=
  (h5_keep_arg4 (W10 m ρ c)).trans (W10_arg4 m ρ c)
theorem W11_arg5 (c : Dev nD) : W11 m ρ c (Proc.devRef .tc main_arg5) = (a5 m c) :=
  (h5_keep_arg5 (W10 m ρ c)).trans (W10_arg5 m ρ c)
theorem W11_arg6 (c : Dev nD) : W11 m ρ c (Proc.devRef .tc main_arg6) = (a6 m c) :=
  (h5_keep_arg6 (W10 m ρ c)).trans (W10_arg6 m ρ c)

/-! ## Exit of pallas_call 5 -/
theorem W12_out (c : Dev nD) : W12 m ρ c (Proc.devRef .tc main_v114) = X6 (a0 m c) (a1 m c) (a2 m c) (a5 m c) (a6 m c) :=
  (W12_arr m ρ c 5).trans ((final5 (V11 m ρ) c).trans
    (hidden_congr (W11_agg m ρ c) (W11_v16 m ρ c) (W11_v15 m ρ c) (W11_w m ρ c) (W11_b m ρ c)))
theorem W12_v16 (c : Dev nD) : W12 m ρ c (Proc.devRef .tc main_v16) = normCol (a6 m c) :=
  (W12_arr m ρ c 1).trans ((kept5 (V11 m ρ) c 1 rfl).trans (W11_v16 m ρ c))
theorem W12_v15 (c : Dev nD) : W12 m ρ c (Proc.devRef .tc main_v15) = normCol (a5 m c) :=
  (W12_arr m ρ c 2).trans ((kept5 (V11 m ρ) c 2 rfl).trans (W11_v15 m ρ c))
theorem W12_arg1 (c : Dev nD) : W12 m ρ c (Proc.devRef .tc main_arg1) = (a1 m c) :=
  (W12_of_ne m ρ c main_arg1 (by decide)).trans (W11_arg1 m ρ c)
theorem W12_arg2 (c : Dev nD) : W12 m ρ c (Proc.devRef .tc main_arg2) = (a2 m c) :=
  (W12_of_ne m ρ c main_arg2 (by decide)).trans (W11_arg2 m ρ c)
theorem W12_arg3 (c : Dev nD) : W12 m ρ c (Proc.devRef .tc main_arg3) = (a3 m c) :=
  (W12_of_ne m ρ c main_arg3 (by decide)).trans (W11_arg3 m ρ c)
theorem W12_arg4 (c : Dev nD) : W12 m ρ c (Proc.devRef .tc main_arg4) = (a4 m c) :=
  (W12_of_ne m ρ c main_arg4 (by decide)).trans (W11_arg4 m ρ c)
theorem W12_arg5 (c : Dev nD) : W12 m ρ c (Proc.devRef .tc main_arg5) = (a5 m c) :=
  (W12_of_ne m ρ c main_arg5 (by decide)).trans (W11_arg5 m ρ c)
theorem W12_arg6 (c : Dev nD) : W12 m ρ c (Proc.devRef .tc main_arg6) = (a6 m c) :=
  (W12_of_ne m ρ c main_arg6 (by decide)).trans (W11_arg6 m ρ c)

/-! ## Entry of pallas_call 6 -/
theorem W13_agg (c : Dev nD) : W13 m ρ c (Proc.devRef .tc main_v124) = agg (X6 (a0 m c) (a1 m c) (a2 m c) (a5 m c) (a6 m c)) (a5 m c) (a6 m c) :=
  (h6_agg (W12 m ρ c)).trans (by rw [W12_out m ρ c, W12_arg5 m ρ c, W12_arg6 m ρ c])
theorem W13_w (c : Dev nD) : W13 m ρ c (Proc.devRef .tc main_v129) = wSlice6 (a1 m c) :=
  (h6_w (W12 m ρ c)).trans (by rw [W12_arg1 m ρ c])
theorem W13_b (c : Dev nD) : W13 m ρ c (Proc.devRef .tc main_v127) = bRow6 (a2 m c) :=
  (h6_b (W12 m ρ c)).trans (by rw [W12_arg2 m ρ c])
theorem W13_v15 (c : Dev nD) : W13 m ρ c (Proc.devRef .tc main_v15) = normCol (a5 m c) :=
  (h6_keep_v15 (W12 m ρ c)).trans (W12_v15 m ρ c)
theorem W13_v16 (c : Dev nD) : W13 m ρ c (Proc.devRef .tc main_v16) = normCol (a6 m c) :=
  (h6_keep_v16 (W12 m ρ c)).trans (W12_v16 m ρ c)
theorem W13_arg1 (c : Dev nD) : W13 m ρ c (Proc.devRef .tc main_arg1) = (a1 m c) :=
  (h6_keep_arg1 (W12 m ρ c)).trans (W12_arg1 m ρ c)
theorem W13_arg2 (c : Dev nD) : W13 m ρ c (Proc.devRef .tc main_arg2) = (a2 m c) :=
  (h6_keep_arg2 (W12 m ρ c)).trans (W12_arg2 m ρ c)
theorem W13_arg3 (c : Dev nD) : W13 m ρ c (Proc.devRef .tc main_arg3) = (a3 m c) :=
  (h6_keep_arg3 (W12 m ρ c)).trans (W12_arg3 m ρ c)
theorem W13_arg4 (c : Dev nD) : W13 m ρ c (Proc.devRef .tc main_arg4) = (a4 m c) :=
  (h6_keep_arg4 (W12 m ρ c)).trans (W12_arg4 m ρ c)
theorem W13_arg5 (c : Dev nD) : W13 m ρ c (Proc.devRef .tc main_arg5) = (a5 m c) :=
  (h6_keep_arg5 (W12 m ρ c)).trans (W12_arg5 m ρ c)
theorem W13_arg6 (c : Dev nD) : W13 m ρ c (Proc.devRef .tc main_arg6) = (a6 m c) :=
  (h6_keep_arg6 (W12 m ρ c)).trans (W12_arg6 m ρ c)

/-! ## Exit of pallas_call 6 -/
theorem W14_out (c : Dev nD) : W14 m ρ c (Proc.devRef .tc main_v130) = X7 (a0 m c) (a1 m c) (a2 m c) (a5 m c) (a6 m c) :=
  (W14_arr m ρ c 5).trans ((final6 (V13 m ρ) c).trans
    (hidden_congr (W13_agg m ρ c) (W13_v16 m ρ c) (W13_v15 m ρ c) (W13_w m ρ c) (W13_b m ρ c)))
theorem W14_v16 (c : Dev nD) : W14 m ρ c (Proc.devRef .tc main_v16) = normCol (a6 m c) :=
  (W14_arr m ρ c 1).trans ((kept6 (V13 m ρ) c 1 rfl).trans (W13_v16 m ρ c))
theorem W14_v15 (c : Dev nD) : W14 m ρ c (Proc.devRef .tc main_v15) = normCol (a5 m c) :=
  (W14_arr m ρ c 2).trans ((kept6 (V13 m ρ) c 2 rfl).trans (W13_v15 m ρ c))
theorem W14_arg1 (c : Dev nD) : W14 m ρ c (Proc.devRef .tc main_arg1) = (a1 m c) :=
  (W14_of_ne m ρ c main_arg1 (by decide)).trans (W13_arg1 m ρ c)
theorem W14_arg2 (c : Dev nD) : W14 m ρ c (Proc.devRef .tc main_arg2) = (a2 m c) :=
  (W14_of_ne m ρ c main_arg2 (by decide)).trans (W13_arg2 m ρ c)
theorem W14_arg3 (c : Dev nD) : W14 m ρ c (Proc.devRef .tc main_arg3) = (a3 m c) :=
  (W14_of_ne m ρ c main_arg3 (by decide)).trans (W13_arg3 m ρ c)
theorem W14_arg4 (c : Dev nD) : W14 m ρ c (Proc.devRef .tc main_arg4) = (a4 m c) :=
  (W14_of_ne m ρ c main_arg4 (by decide)).trans (W13_arg4 m ρ c)
theorem W14_arg5 (c : Dev nD) : W14 m ρ c (Proc.devRef .tc main_arg5) = (a5 m c) :=
  (W14_of_ne m ρ c main_arg5 (by decide)).trans (W13_arg5 m ρ c)
theorem W14_arg6 (c : Dev nD) : W14 m ρ c (Proc.devRef .tc main_arg6) = (a6 m c) :=
  (W14_of_ne m ρ c main_arg6 (by decide)).trans (W13_arg6 m ρ c)

/-! ## Entry and exit of pallas_call 7 -/
theorem W15_agg (c : Dev nD) : W15 m ρ c (Proc.devRef .tc main_v140) = agg (X7 (a0 m c) (a1 m c) (a2 m c) (a5 m c) (a6 m c)) (a5 m c) (a6 m c) :=
  (h7_agg (W14 m ρ c)).trans (by rw [W14_out m ρ c, W14_arg5 m ρ c, W14_arg6 m ρ c])
theorem W15_b (c : Dev nD) : W15 m ρ c (Proc.devRef .tc main_v141) = bOut (a4 m c) :=
  (h7_b (W14 m ρ c)).trans (by rw [W14_arg4 m ρ c])
theorem W15_v16 (c : Dev nD) : W15 m ρ c (Proc.devRef .tc main_v16) = normCol (a6 m c) :=
  (h7_keep_v16 (W14 m ρ c)).trans (W14_v16 m ρ c)
theorem W15_arg3 (c : Dev nD) : W15 m ρ c (Proc.devRef .tc main_arg3) = (a3 m c) :=
  (h7_keep_arg3 (W14 m ρ c)).trans (W14_arg3 m ρ c)

end Cert.KernelIdeal.Layers

end
-- ==== Proof.KernelRun.lean ====
/-
  The run of the kernel's program with its final buffer contents named.

  The program is sixteen segments (eight host stretches, eight pallas_calls) run by the launch theorem for a program of several regions; the thread state
  after the last segment holds every unscoped buffer of a core at the last boundary's contents.  Read against the
  final state, that gives the whole final valuation (`run_final`); at the result buffer it is the network's result
  of the arguments (the boundary contents named one segment at a time), and at each argument buffer its launch
  contents (`run`).
-/
import proofs.«127991_j20306605375975_1_alg».proof.Proof.Chain

set_option maxRecDepth 16384

noncomputable section

namespace Cert.KernelIdeal.Layers

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Dense Cert.GcnDense

local notation "𝕄" => MT nD τ sig Unit (Elt Ideal) ℕ (UR sig nD τ) ℕ

variable (m : (ℓ : Loc nD τ sig) → Buf (Elt Ideal) ℓ) (ρ : Dev nD → PrngReg)

/-- The result buffer after the last segment is the last layer of what pallas_call 7 finds. -/
theorem W16_head (c : Dev nD) : W16 m ρ c (Proc.devRef .tc main_v142)
    = head (M := 100000) (K := 128) (N := 64) (V15 m ρ c main_v140) (V15 m ρ c main_v16) (V15 m ρ c main_arg3) (V15 m ρ c main_v141) :=
  (W16_arr m ρ c 4).trans (final7 (V15 m ρ) c)

/-- What pallas_call 7 finds, named: the aggregate of `X7`, the in-degree factor, the last weights and bias row. -/
theorem head_args (c : Dev nD) :
    head (M := 100000) (K := 128) (N := 64) (V15 m ρ c main_v140) (V15 m ρ c main_v16) (V15 m ρ c main_arg3) (V15 m ρ c main_v141)
    = head (M := 100000) (K := 128) (N := 64) (agg (X7 (a0 m c) (a1 m c) (a2 m c) (a5 m c) (a6 m c)) (a5 m c) (a6 m c))
        (normCol (a6 m c)) (a3 m c) (bOut (a4 m c)) :=
  head_congr (W15_agg m ρ c) (W15_v16 m ρ c) (W15_arg3 m ρ c) (W15_b m ρ c)

/-- THE RESULT BUFFER after the last segment: the network's result of the launch contents of the arguments. -/
theorem W16_out (c : Dev nD) : W16 m ρ c (Proc.devRef .tc main_v142)
    = netOut (a0 m c) (a1 m c) (a2 m c) (a3 m c) (a4 m c) (a5 m c) (a6 m c) :=
  (W16_head m ρ c).trans (head_args m ρ c)

-- the launch theorem's implicit arguments are found by unifying its conclusion with this one, which takes unfolding plain
-- definitions in a metavariable's type
set_option backward.isDefEq.respectTransparency.types false in
/-- Every weakly fair execution of the program terminates, nothing faulting, with every unscoped buffer of every
    core at the contents of the last segment boundary. -/
theorem run_final : θ_run defs (onTc (τ := τ) (main (F := Ideal))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := Ideal)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the one the launch theorem asks for; no core is given anything beside it
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c))
    (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      -- each core starts holding its unscoped buffers at the launch memory, its generator register, and owing nothing
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      · iexists ∅
        iexact HO)
    (QY := fun c s => ∀ b ∈ Pipeline.ucRefs τ sig, s.mem (((c : Thread nD τ)).1, b) = W16 m ρ c b)
    (hfin := fun c s' => by
      -- the buffers the last thread state holds are what the final memory holds
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h => h)

/-- THE KERNEL'S RUN: it terminates, nothing faulting, the result buffer at the network's result of the launch
    contents of the arguments, and the arguments as launched. -/
theorem run : θ_run defs (onTc (τ := τ) (main (F := Ideal))) ⟨m, fun _ => 0, ρ⟩ (fun r => ∀ c : Dev nD,
      r.2.mem ((c.tc : Thread nD τ).loc main_v142)
        = netOut (a0 m c) (a1 m c) (a2 m c) (a3 m c) (a4 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v142 (by decide))).trans (W16_out m ρ c),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c)⟩)
    (run_final m ρ)

end Cert.KernelIdeal.Layers

end
-- ==== Proof.RefValue.lean ====
/-
  The reference's result, read as the same function of the arguments as the kernel's: `out`.

  The reference is one straight line of host operations.  Per hidden layer it scales the features by the out-degree
  factor, aggregates along the edges, scales by the in-degree factor, multiplies by the layer's weights, adds the
  bias and rectifies; the scaling by the out-degree factor that opens the NEXT layer is read here as the close of
  this one, which is where the kernel applies it.  So the stage after each such scaling is `X1 … X7`, by the host
  spelling of a hidden layer (`hostHidden`) over the shared aggregation and degree-factor functions, and the last
  stage is `last` by the host spelling of the logistic function (`hostHead`).
-/
import proofs.«127991_j20306605375975_1_alg».proof.Proof.Gen.ReferenceIdeal.Read
import proofs.«127991_j20306605375975_1_alg».proof.Proof.Stack

set_option maxRecDepth 16384

noncomputable section

namespace Cert.ReferenceIdeal.RefValue

open Cert.ReferenceIdeal Cert.ReferenceIdeal.Read Idealize.ShloMosaic Cert.Dense Cert.GcnDense
open Cert.KernelIdeal.Spec

variable (x0 : (⟨S100000x128, .f32⟩ : BufTy).Contents (Elt Ideal)) (x1 : (⟨S7x128x128, .f32⟩ : BufTy).Contents (Elt Ideal)) (x2 : (⟨S7x128, .f32⟩ : BufTy).Contents (Elt Ideal))
  (x3 : (⟨S128x64, .f32⟩ : BufTy).Contents (Elt Ideal)) (x4 : (⟨S64, .f32⟩ : BufTy).Contents (Elt Ideal)) (x5 x6 : (⟨S1600000, .i32⟩ : BufTy).Contents (Elt Ideal))

/-! ## The shared pieces: the reference's stages are the same host terms -/

/-- The out-degree factor column. -/
theorem ns_eq : val_main_v11 (F := Ideal) x5 = normCol x5 := rfl
/-- The in-degree factor column. -/
theorem nd_eq : val_main_v16 (F := Ideal) x6 = normCol x6 := rfl
/-- The first layer's input. -/
theorem feat_eq : val_main_v22 (F := Ideal) x0 x5 = feat0 x0 x5 := rfl

/-! ## Hidden layer 0 -/
/-- Its weight matrix. -/
theorem w0_eq : val_main_v18 (F := Ideal) x1 = wSlice0 x1 := rfl
/-- Its bias row. -/
theorem b0_eq : val_main_v36 (F := Ideal) x2 = bRow0 x2 := rfl
/-- Its aggregate is the shared aggregation of the previous stage. -/
theorem agg0_eq : val_main_v32 (F := Ideal) x0 x5 x6 = agg (val_main_v22 (F := Ideal) x0 x5) x5 x6 := rfl
/-- The stage that closes it is `X1`. -/
theorem layer0_eq : val_main_v45 (F := Ideal) x0 x1 x2 x5 x6 = X1 x0 x1 x2 x5 x6 := by
  unfold val_main_v45 val_main_v44 val_main_v39 val_main_call0_v0 val_main_call0_cst val_main_v38 val_main_v37 val_main_v35 val_main_v34 val_main_v33
  refine (hostHidden (M := 100000) (K := 128) (N := 128) Cert.ReferenceIdeal.dot_S100000x128_S128x128_S100000x128_1_0_0_1_n_n rfl rfl rfl rfl rfl rfl none
    _ _ _ _ _ _ _ _ _).trans ?_
  exact hidden_congr ((agg0_eq x0 x5 x6).trans (by rw [feat_eq x0 x5])) (nd_eq x6) (ns_eq x5) (w0_eq x1) (b0_eq x2)

/-! ## Hidden layer 1 -/
/-- Its weight matrix. -/
theorem w1_eq : val_main_v41 (F := Ideal) x1 = wSlice1 x1 := rfl
/-- Its bias row. -/
theorem b1_eq : val_main_v59 (F := Ideal) x2 = bRow1 x2 := rfl
/-- Its aggregate is the shared aggregation of the previous stage. -/
theorem agg1_eq : val_main_v55 (F := Ideal) x0 x1 x2 x5 x6 = agg (val_main_v45 (F := Ideal) x0 x1 x2 x5 x6) x5 x6 := rfl
/-- The stage that closes it is `X2`. -/
theorem layer1_eq : val_main_v68 (F := Ideal) x0 x1 x2 x5 x6 = X2 x0 x1 x2 x5 x6 := by
  unfold val_main_v68 val_main_v67 val_main_v62 val_main_call1_v0 val_main_call1_cst val_main_v61 val_main_v60 val_main_v58 val_main_v57 val_main_v56
  refine (hostHidden (M := 100000) (K := 128) (N := 128) Cert.ReferenceIdeal.dot_S100000x128_S128x128_S100000x128_1_0_0_1_n_n rfl rfl rfl rfl rfl rfl none
    _ _ _ _ _ _ _ _ _).trans ?_
  exact hidden_congr ((agg1_eq x0 x1 x2 x5 x6).trans (by rw [layer0_eq x0 x1 x2 x5 x6])) (nd_eq x6) (ns_eq x5) (w1_eq x1) (b1_eq x2)

/-! ## Hidden layer 2 -/
/-- Its weight matrix. -/
theorem w2_eq : val_main_v64 (F := Ideal) x1 = wSlice2 x1 := rfl
/-- Its bias row. -/
theorem b2_eq : val_main_v82 (F := Ideal) x2 = bRow2 x2 := rfl
/-- Its aggregate is the shared aggregation of the previous stage. -/
theorem agg2_eq : val_main_v78 (F := Ideal) x0 x1 x2 x5 x6 = agg (val_main_v68 (F := Ideal) x0 x1 x2 x5 x6) x5 x6 := rfl
/-- The stage that closes it is `X3`. -/
theorem layer2_eq : val_main_v91 (F := Ideal) x0 x1 x2 x5 x6 = X3 x0 x1 x2 x5 x6 := by
  unfold val_main_v91 val_main_v90 val_main_v85 val_main_call2_v0 val_main_call2_cst val_main_v84 val_main_v83 val_main_v81 val_main_v80 val_main_v79
  refine (hostHidden (M := 100000) (K := 128) (N := 128) Cert.ReferenceIdeal.dot_S100000x128_S128x128_S100000x128_1_0_0_1_n_n rfl rfl rfl rfl rfl rfl none
    _ _ _ _ _ _ _ _ _).trans ?_
  exact hidden_congr ((agg2_eq x0 x1 x2 x5 x6).trans (by rw [layer1_eq x0 x1 x2 x5 x6])) (nd_eq x6) (ns_eq x5) (w2_eq x1) (b2_eq x2)

/-! ## Hidden layer 3 -/
/-- Its weight matrix. -/
theorem w3_eq : val_main_v87 (F := Ideal) x1 = wSlice3 x1 := rfl
/-- Its bias row. -/
theorem b3_eq : val_main_v105 (F := Ideal) x2 = bRow3 x2 := rfl
/-- Its aggregate is the shared aggregation of the previous stage. -/
theorem agg3_eq : val_main_v101 (F := Ideal) x0 x1 x2 x5 x6 = agg (val_main_v91 (F := Ideal) x0 x1 x2 x5 x6) x5 x6 := rfl
/-- The stage that closes it is `X4`. -/
theorem layer3_eq : val_main_v114 (F := Ideal) x0 x1 x2 x5 x6 = X4 x0 x1 x2 x5 x6 := by
  unfold val_main_v114 val_main_v113 val_main_v108 val_main_call3_v0 val_main_call3_cst val_main_v107 val_main_v106 val_main_v104 val_main_v103 val_main_v102
  refine (hostHidden (M := 100000) (K := 128) (N := 128) Cert.ReferenceIdeal.dot_S100000x128_S128x128_S100000x128_1_0_0_1_n_n rfl rfl rfl rfl rfl rfl none
    _ _ _ _ _ _ _ _ _).trans ?_
  exact hidden_congr ((agg3_eq x0 x1 x2 x5 x6).trans (by rw [layer2_eq x0 x1 x2 x5 x6])) (nd_eq x6) (ns_eq x5) (w3_eq x1) (b3_eq x2)

/-! ## Hidden layer 4 -/
/-- Its weight matrix. -/
theorem w4_eq : val_main_v110 (F := Ideal) x1 = wSlice4 x1 := rfl
/-- Its bias row. -/
theorem b4_eq : val_main_v128 (F := Ideal) x2 = bRow4 x2 := rfl
/-- Its aggregate is the shared aggregation of the previous stage. -/
theorem agg4_eq : val_main_v124 (F := Ideal) x0 x1 x2 x5 x6 = agg (val_main_v114 (F := Ideal) x0 x1 x2 x5 x6) x5 x6 := rfl
/-- The stage that closes it is `X5`. -/
theorem layer4_eq : val_main_v137 (F := Ideal) x0 x1 x2 x5 x6 = X5 x0 x1 x2 x5 x6 := by
  unfold val_main_v137 val_main_v136 val_main_v131 val_main_call4_v0 val_main_call4_cst val_main_v130 val_main_v129 val_main_v127 val_main_v126 val_main_v125
  refine (hostHidden (M := 100000) (K := 128) (N := 128) Cert.ReferenceIdeal.dot_S100000x128_S128x128_S100000x128_1_0_0_1_n_n rfl rfl rfl rfl rfl rfl none
    _ _ _ _ _ _ _ _ _).trans ?_
  exact hidden_congr ((agg4_eq x0 x1 x2 x5 x6).trans (by rw [layer3_eq x0 x1 x2 x5 x6])) (nd_eq x6) (ns_eq x5) (w4_eq x1) (b4_eq x2)

/-! ## Hidden layer 5 -/
/-- Its weight matrix. -/
theorem w5_eq : val_main_v133 (F := Ideal) x1 = wSlice5 x1 := rfl
/-- Its bias row. -/
theorem b5_eq : val_main_v151 (F := Ideal) x2 = bRow5 x2 := rfl
/-- Its aggregate is the shared aggregation of the previous stage. -/
theorem agg5_eq : val_main_v147 (F := Ideal) x0 x1 x2 x5 x6 = agg (val_main_v137 (F := Ideal) x0 x1 x2 x5 x6) x5 x6 := rfl
/-- The stage that closes it is `X6`. -/
theorem layer5_eq : val_main_v160 (F := Ideal) x0 x1 x2 x5 x6 = X6 x0 x1 x2 x5 x6 := by
  unfold val_main_v160 val_main_v159 val_main_v154 val_main_call5_v0 val_main_call5_cst val_main_v153 val_main_v152 val_main_v150 val_main_v149 val_main_v148
  refine (hostHidden (M := 100000) (K := 128) (N := 128) Cert.ReferenceIdeal.dot_S100000x128_S128x128_S100000x128_1_0_0_1_n_n rfl rfl rfl rfl rfl rfl none
    _ _ _ _ _ _ _ _ _).trans ?_
  exact hidden_congr ((agg5_eq x0 x1 x2 x5 x6).trans (by rw [layer4_eq x0 x1 x2 x5 x6])) (nd_eq x6) (ns_eq x5) (w5_eq x1) (b5_eq x2)

/-! ## Hidden layer 6 -/
/-- Its weight matrix. -/
theorem w6_eq : val_main_v156 (F := Ideal) x1 = wSlice6 x1 := rfl
/-- Its bias row. -/
theorem b6_eq : val_main_v174 (F := Ideal) x2 = bRow6 x2 := rfl
/-- Its aggregate is the shared aggregation of the previous stage. -/
theorem agg6_eq : val_main_v170 (F := Ideal) x0 x1 x2 x5 x6 = agg (val_main_v160 (F := Ideal) x0 x1 x2 x5 x6) x5 x6 := rfl
/-- The stage that closes it is `X7`. -/
theorem layer6_eq : val_main_v179 (F := Ideal) x0 x1 x2 x5 x6 = X7 x0 x1 x2 x5 x6 := by
  unfold val_main_v179 val_main_v178 val_main_v177 val_main_call6_v0 val_main_call6_cst val_main_v176 val_main_v175 val_main_v173 val_main_v172 val_main_v171
  refine (hostHidden (M := 100000) (K := 128) (N := 128) Cert.ReferenceIdeal.dot_S100000x128_S128x128_S100000x128_1_0_0_1_n_n rfl rfl rfl rfl rfl rfl none
    _ _ _ _ _ _ _ _ _).trans ?_
  exact hidden_congr ((agg6_eq x0 x1 x2 x5 x6).trans (by rw [layer5_eq x0 x1 x2 x5 x6])) (nd_eq x6) (ns_eq x5) (w6_eq x1) (b6_eq x2)

/-! ## The last layer -/
/-- Its aggregate is the shared aggregation of the previous stage. -/
theorem agg7_eq : val_main_v189 (F := Ideal) x0 x1 x2 x5 x6 = agg (val_main_v179 (F := Ideal) x0 x1 x2 x5 x6) x5 x6 := rfl
/-- Its bias row. -/
theorem b7_eq : val_main_v193 (F := Ideal) x4 = bOut x4 := rfl

/-- The last stage is the last layer of its aggregate, the in-degree factor, the last weights and the bias row. -/
theorem result_head : val_main_v201 (F := Ideal) x0 x1 x2 x3 x4 x5 x6
    = head (M := 100000) (K := 128) (N := 64) (val_main_v189 (F := Ideal) x0 x1 x2 x5 x6) (val_main_v16 (F := Ideal) x6) x3 (val_main_v193 (F := Ideal) x4) := by
  unfold val_main_v201 val_main_v200 val_main_cst_30 val_main_v199 val_main_v198 val_main_cst_29 val_main_v197 val_main_v196 val_main_v195 val_main_v194 val_main_v192 val_main_v191 val_main_v190
  exact hostHead (M := 100000) (K := 128) (N := 64) Cert.ReferenceIdeal.dot_S100000x128_S128x64_S100000x64_1_0_0_1_n_n rfl rfl rfl rfl rfl rfl none
    _ _ _ _ _ _ _ _

/-- Its operands, named. -/
theorem result_args :
    head (M := 100000) (K := 128) (N := 64) (val_main_v189 (F := Ideal) x0 x1 x2 x5 x6) (val_main_v16 (F := Ideal) x6) x3 (val_main_v193 (F := Ideal) x4)
    = head (M := 100000) (K := 128) (N := 64) (agg (X7 x0 x1 x2 x5 x6) x5 x6) (normCol x6) x3 (bOut x4) :=
  head_congr ((agg7_eq x0 x1 x2 x5 x6).trans (by rw [layer6_eq x0 x1 x2 x5 x6])) (nd_eq x6) rfl (b7_eq x4)

/-- THE REFERENCE'S RESULT is the network's result of the arguments. -/
theorem result_eq : val_main_v201 (F := Ideal) x0 x1 x2 x3 x4 x5 x6 = netOut x0 x1 x2 x3 x4 x5 x6 :=
  (result_head x0 x1 x2 x3 x4 x5 x6).trans (result_args x0 x1 x2 x3 x4 x5 x6)

end Cert.ReferenceIdeal.RefValue

end
-- ==== Proof.lean ====
/-
  The proof of `Cert.Claim`: an eight-layer degree-normalised graph network — seven hidden layers of width 128 and
  a last layer of width 64 with the logistic function, over 100000 nodes and 1600000 edges — computed by eight
  pallas_calls (one dense layer each, twenty blocks of 5000 rows) between host gathers and segment sums, against
  the same network written as plain array operations.

  On the extended reals the two programs are ONE function of the seven arguments, `netOut` (Proof/Stack.lean):
  both aggregate along the edges with the same host operations (carried as the opaque function `agg`), both take
  the degree factors from the same host operations (`normCol`), and per layer both compute
  `max ((∑ k, (A (p, k) · nd p) · W (k, q)) + b q, 0) · ns p` — the kernel per block of rows with the operands
  narrowed to bf16 (the identity on the extended reals) and the out-degree factor applied inside the call, the
  reference over the whole array with that factor applied as the next layer's first step.  No sum is re-associated
  and no factor is moved across a sum, so the precondition (finite inputs) is never opened.

  The kernel's side: each call's output array after the call is the layer of the arrays it finds (Proof/Region0 … 7:
  the body's store is the layer of the loaded blocks, a layer is row-local, the blocks cover the array); the
  buffer contents at every segment boundary follow one segment at a time (Proof/Host0 … 7, Proof/Chain.lean), and the
  run ends with the result buffer at `netOut` of the arguments (Proof/KernelRun.lean).  The reference's side: its
  generated run ends at its operations' composed term, which is `netOut` layer by layer (Proof/RefValue.lean).  The
  three frames are the generated ones; the idealization rewrote no operation, so `preserves` is trivial.
-/
import proofs.«127991_j20306605375975_1_alg».proof.Defs
import proofs.«127991_j20306605375975_1_alg».proof.Proof.Gen.Kernel
import proofs.«127991_j20306605375975_1_alg».proof.Proof.Gen.Kernel.Skeleton
import proofs.«127991_j20306605375975_1_alg».proof.Proof.Gen.Kernel.Launch
import proofs.«127991_j20306605375975_1_alg».proof.Proof.Gen.Kernel.Points
import proofs.«127991_j20306605375975_1_alg».proof.Proof.Gen.Kernel.Frame
import proofs.«127991_j20306605375975_1_alg».proof.Proof.Gen.KernelIdeal
import proofs.«127991_j20306605375975_1_alg».proof.Proof.Gen.KernelIdeal.Skeleton
import proofs.«127991_j20306605375975_1_alg».proof.Proof.Gen.KernelIdeal.Launch
import proofs.«127991_j20306605375975_1_alg».proof.Proof.Gen.KernelIdeal.Points
import proofs.«127991_j20306605375975_1_alg».proof.Proof.Gen.KernelIdeal.Frame
import proofs.«127991_j20306605375975_1_alg».proof.Proof.Gen.ReferenceIdeal
import proofs.«127991_j20306605375975_1_alg».proof.Proof.Gen.Pre_finite_inputs
import proofs.«127991_j20306605375975_1_alg».proof.Proof.Gen.ReferenceIdeal.Run
import proofs.«127991_j20306605375975_1_alg».proof.Proof.Gen.ReferenceIdeal.Read
import proofs.«127991_j20306605375975_1_alg».proof.Proof.KernelRun
import proofs.«127991_j20306605375975_1_alg».proof.Proof.RefValue
import Idealize.ShloMosaic.Adequacy
import Idealize.ShloMosaic.Init

noncomputable section

namespace Cert.Proof

open Idealize.ShloMosaic Idealize.SL.Sem

/-- The kernel's program as printed: the generated frame. -/
theorem frame_k : Cert.frame_Kernel := fun m ρ _ => Cert.Kernel.Gen.frame m ρ

/-- The kernel's program on the extended reals: the generated frame. -/
theorem frame_ki : Cert.frame_KernelIdeal := fun m ρ _ => Cert.KernelIdeal.Gen.frame m ρ

/-- The reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result buffer at `netOut` of the arguments. -/
theorem algebraic : Cert.algebraic_KernelIdeal_ReferenceIdeal := by
  intro m ρ m' ρ' _ hagree
  refine ⟨_, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v201_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
